-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S16x8192x2048 : Shape := ⟨3, ![16, 8192, 2048]⟩
abbrev S16x2048x4096 : Shape := ⟨3, ![16, 2048, 4096]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S16x8192x2048 : S_.BroadcastsInDim S16x8192x2048 (![] : Fin 0 → Fin S16x8192x2048.rank)
  reducesTo_S16x8192x2048_S_d0_1_2 : S16x8192x2048.ReducesTo [0, 1, 2] S_
  bcast_S_S16x2048x4096 : S_.BroadcastsInDim S16x2048x4096 (![] : Fin 0 → Fin S16x2048x4096.rank)
  reducesTo_S16x2048x4096_S_d0_1_2 : S16x2048x4096.ReducesTo [0, 1, 2] S_

variable [Facts]

def fn {F : FTy → Type} [FloatOps F] (main_arg0 : FVec F S8192x2048 .f32) (main_arg1 : FVec F S16x8192x2048 .f32) (main_arg2 : FVec F S16x2048x4096 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S16x8192x2048 .f32 := Host.absf main_arg1
  let main_cst_0 : FVec F S_ .f32 := constant S_ .f32 0x7F800000#32
  let main_v5 : FVec F S16x8192x2048 .f32 := broadcastInDim S16x8192x2048 ![] bcast_S_S16x8192x2048 main_cst_0
  let main_v6 : IVec S16x8192x2048 1 := cmpf .olt main_v4 main_v5
  let main_c_1 : IVec S_ 1 := constantI S_ 1 1#1
  let main_v7 : IVec S_ 1 := (fun x v => Host.reduce IntOp.andi x v reducesTo_S16x8192x2048_S_d0_1_2 h_S_) main_v6 main_c_1
  let main_v8 : IVec S_ 1 := andi main_v3 main_v7
  let main_v9 : FVec F S16x2048x4096 .f32 := Host.absf main_arg2
  let main_cst_2 : FVec F S_ .f32 := constant S_ .f32 0x7F800000#32
  let main_v10 : FVec F S16x2048x4096 .f32 := broadcastInDim S16x2048x4096 ![] bcast_S_S16x2048x4096 main_cst_2
  let main_v11 : IVec S16x2048x4096 1 := cmpf .olt main_v9 main_v10
  let main_c_3 : IVec S_ 1 := constantI S_ 1 1#1
  let main_v12 : IVec S_ 1 := (fun x v => Host.reduce IntOp.andi x v reducesTo_S16x2048x4096_S_d0_1_2 h_S_) main_v11 main_c_3
  let main_v13 : IVec S_ 1 := andi main_v8 main_v12
  main_v13
-- ==== Kernel.lean ====
abbrev S8192x2048 : Shape := ⟨2, ![8192, 2048]⟩
abbrev S16x8192x2048 : Shape := ⟨3, ![16, 8192, 2048]⟩
abbrev S16x2048x4096 : Shape := ⟨3, ![16, 2048, 4096]⟩
abbrev S16x512x2048 : Shape := ⟨3, ![16, 512, 2048]⟩
abbrev S1x512x2048 : Shape := ⟨3, ![1, 512, 2048]⟩
abbrev S1x256x2048 : Shape := ⟨3, ![1, 256, 2048]⟩
abbrev S1x2048x256 : Shape := ⟨3, ![1, 2048, 256]⟩
abbrev S512x2048 : Shape := ⟨2, ![512, 2048]⟩
abbrev S256x2048 : Shape := ⟨2, ![256, 2048]⟩
abbrev S2048x256 : Shape := ⟨2, ![2048, 256]⟩
abbrev S512x256 : Shape := ⟨2, ![512, 256]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S16x8192x2048, .f32⟩
  | .hbm, ⟨2, _⟩ => ⟨S16x2048x4096, .f32⟩
  | .hbm, ⟨3, _⟩ => ⟨S8192x2048, .bf16⟩
  | .hbm, ⟨4, _⟩ => ⟨S16x512x2048, .bf16⟩
  | .hbm, ⟨5, _⟩ => ⟨S16x512x2048, .f32⟩
  | .hbm, ⟨6, _⟩ => ⟨S8192x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x2048x256, .f32⟩
  | .local _ .vmem, ⟨7, _⟩ => ⟨S1x2048x256, .f32⟩
  | .local _ .vmem, ⟨8, _⟩ => ⟨S1x512x2048, .f32⟩
  | .local _ .vmem, ⟨9, _⟩ => ⟨S1x512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c0_i32 : BitVec 32 := 0#32
  let v18 : BitVec 1 := Scalar.cmpi .eq arg1 c0_i32
  let v19 : BitVec 32 := Scalar.extui v18
  let c0_i32_13 : BitVec 32 := 0#32
  let v20 : BitVec 1 := Scalar.cmpi .ne v19 c0_i32_13
  v20

def k0_cond2 (i : grid0.Coords) : BitVec 1 :=
  let arg1 : BitVec 32 := BitVec.ofNat 32 (i 1).val
  let c0_i32_14 : BitVec 32 := 0#32
  let v21 : BitVec 1 := Scalar.cmpi .ne arg1 c0_i32_14
  let v22 : BitVec 32 := Scalar.extui v21
  let c0_i32_15 : BitVec 32 := 0#32
  let v23 : BitVec 1 := Scalar.cmpi .ne v22 c0_i32_15
  v23

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  shapeCasts_S8192x2048_S16x512x2048 : S8192x2048.ShapeCasts S16x512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S512x2048_S1x512x2048 : S512x2048.ShapeCasts S1x512x2048
  shapeCasts_S16x512x2048_S8192x2048 : S16x512x2048.ShapeCasts S8192x2048
  dot_S512x2048_S256x2048_S512x256_1_1_0_0_n_n_wf : DotDims.WF S512x2048 S256x2048 S512x256 [1] [1] [0] [0] [] []
  dot_S512x256_S2048x256_S512x2048_1_1_0_0_n_n_wf : DotDims.WF S512x256 S2048x256 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S16x512x2048.size a
  hwx0_0 : ∀ i : grid0.Coords, EltTy.bits .bf16 = 32 ∨ (Rect.block (s := S16x512x2048) S1x512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2048.size a ≤ S16x8192x2048.size a
  hwx0_1 : ∀ i : grid0.Coords, EltTy.bits .f32 = 32 ∨ (Rect.block (s := S16x8192x2048) S1x256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S16x8192x2048.size a
  hwx0_2 : ∀ i : grid0.Coords, EltTy.bits .f32 = 32 ∨ (Rect.block (s := S16x8192x2048) S1x256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x256.size a ≤ S16x2048x4096.size a
  hwx0_3 : ∀ i : grid0.Coords, EltTy.bits .f32 = 32 ∨ (Rect.block (s := S16x2048x4096) S1x2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S16x512x2048.size a
  hwx0_4 : ∀ i : grid0.Coords, EltTy.bits .f32 = 32 ∨ (Rect.block (s := S16x512x2048) S1x512x2048.size (cc0_transform_4 i) (hinb0_4 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf
def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf

abbrev win0_0 : Pipeline.Window sig grid0 :=
  Pipeline.Window.ofSpec (Memref.whole main_v1) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond2 i == 1#1) | ⟨_ + 5, h⟩ => absurd h (Nat.not_lt.2 (Nat.le_add_left _ _))

class Facts : Prop extends Facts₀ where

variable [Facts]
-- ==== ReferenceIdeal.lean ====
abbrev S8192x2048 : Shape := ⟨2, ![8192, 2048]⟩
abbrev S16x8192x2048 : Shape := ⟨3, ![16, 8192, 2048]⟩
abbrev S16x2048x4096 : Shape := ⟨3, ![16, 2048, 4096]⟩
abbrev S16x512x2048 : Shape := ⟨3, ![16, 512, 2048]⟩
abbrev S16x512x8192 : Shape := ⟨3, ![16, 512, 8192]⟩
abbrev S16x512x4096 : Shape := ⟨3, ![16, 512, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S16x8192x2048, .f32⟩
  | .hbm, ⟨2, _⟩ => ⟨S16x2048x4096, .f32⟩
  | .hbm, ⟨3, _⟩ => ⟨S16x512x2048, .f32⟩
  | .hbm, ⟨4, _⟩ => ⟨S16x512x8192, .f32⟩
  | .hbm, ⟨5, _⟩ => ⟨S16x512x4096, .f32⟩
  | .hbm, ⟨6, _⟩ => ⟨S16x512x4096, .f32⟩
  | .hbm, ⟨7, _⟩ => ⟨S16x512x4096, .f32⟩
  | .hbm, ⟨8, _⟩ => ⟨S16x512x4096, .f32⟩
  | .hbm, ⟨9, _⟩ => ⟨S_, .f32⟩
  | .hbm, ⟨10, _⟩ => ⟨S16x512x4096, .f32⟩
  | .hbm, ⟨11, _⟩ => ⟨S16x512x4096, .f32⟩
  | .hbm, ⟨12, _⟩ => ⟨S_, .f32⟩
  | .hbm, ⟨13, _⟩ => ⟨S16x512x4096, .f32⟩
  | .hbm, ⟨14, _⟩ => ⟨S16x512x4096, .f32⟩
  | .hbm, ⟨15, _⟩ => ⟨S16x512x4096, .f32⟩
  | .hbm, ⟨16, _⟩ => ⟨S16x512x4096, .f32⟩
  | .hbm, ⟨17, _⟩ => ⟨S16x512x2048, .f32⟩
  | .hbm, ⟨18, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]

class Facts₀ : Prop where
  shapeCasts_S8192x2048_S16x512x2048 : S8192x2048.ShapeCasts S16x512x2048
  slices_S16x512x8192_S16x512x4096_0_0_0 : S16x512x8192.Slices ![0, 0, 0] S16x512x4096
  slices_S16x512x8192_S16x512x4096_0_0_4096 : S16x512x8192.Slices ![0, 0, 4096] S16x512x4096
  bcast_S_S16x512x4096 : S_.BroadcastsInDim S16x512x4096 (![] : Fin 0 → Fin S16x512x4096.rank)
  shapeCasts_S16x512x2048_S8192x2048 : S16x512x2048.ShapeCasts S8192x2048
  dot_S16x512x2048_S16x8192x2048_S16x512x8192_2_2_1_1_0_0_wf : DotDims.WF S16x512x2048 S16x8192x2048 S16x512x8192 [2] [2] [1] [1] [0] [0]
  dot_S16x512x4096_S16x2048x4096_S16x512x2048_2_2_1_1_0_0_wf : DotDims.WF S16x512x4096 S16x2048x4096 S16x512x2048 [2] [2] [1] [1] [0] [0]

variable [Facts₀]

def dot_S16x512x2048_S16x8192x2048_S16x512x8192_2_2_1_1_0_0 : DotDims S16x512x2048 S16x8192x2048 S16x512x8192 where
  lhsContracting := [2]
  rhsContracting := [2]
  lhsNonContracting := [1]
  rhsNonContracting := [1]
  lhsBatch := [0]
  rhsBatch := [0]
  wf := dot_S16x512x2048_S16x8192x2048_S16x512x8192_2_2_1_1_0_0_wf
def dot_S16x512x4096_S16x2048x4096_S16x512x2048_2_2_1_1_0_0 : DotDims S16x512x4096 S16x2048x4096 S16x512x2048 where
  lhsContracting := [2]
  rhsContracting := [2]
  lhsNonContracting := [1]
  rhsNonContracting := [1]
  lhsBatch := [0]
  rhsBatch := [0]
  wf := dot_S16x512x4096_S16x2048x4096_S16x512x2048_2_2_1_1_0_0_wf

class Facts : Prop extends Facts₀ where

variable [Facts]
-- ==== Proof.K.Data.lean ====
/-
  The proof data of the one pipeline of the expert kernel, for any float instance.

  The region runs over a 16 x 16 grid, point t = 16 e + k: expert e, tile k of the intermediate axis. Window 0 is
  expert e's token block, windows 1 and 2 are tile k of the gate rows and of the up rows of ONE array (the packed
  gate/up weights, handed to the kernel twice), window 3 is tile k of the down weights' columns, window 4 the
  expert's output block, kept in its staging buffer over the sixteen tiles and written back after the last.
  What the output's staging buffer holds after point t (`acc`): at k = 0 the tile's partial product, at k > 0 the
  previous contents plus the tile's partial product. The two windows on the packed weights hold the two halves of
  that array's share.
-/
import proofs.«145822_j8916352106544_2_alg».proof.Proof.Gen.Kernel.Launch
import proofs.«145822_j8916352106544_2_alg».proof.Proof.Gen.Kernel.Skeleton
import proofs.«145822_j8916352106544_2_alg».proof.Proof.Gen.Kernel.Points
import Idealize.ShloMosaic.Lib.Pipeline.FrameBody
import Idealize.ShloMosaic.Lib.Pipeline.Frame

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffers at launch, as the host operations' valuation; -/
abbrev V₀ (c : Dev nD) : Valuation τ sig (Elt F) := fun b => m ((c : Dev nD), b)
/-- and when the region is entered: the cast of the tokens and its regrouping by expert have run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the output's staging buffer holds after the body at position `n`: at the first tile of an expert the tile's
    partial product, at a later tile the contents the tile before left plus the tile's partial product. -/
def acc (c : Dev nD) : (n : ℕ) → n < cfg0.N → FVec F S1x512x2048 .f32
  | 0, hn => k0_pay2 (iblk m c 0 ⟨0, hn⟩) (iblk m c 1 ⟨0, hn⟩) (iblk m c 2 ⟨0, hn⟩) (iblk m c 3 ⟨0, hn⟩)
  | n + 1, hn =>
    if (n + 1) % 16 = 0 then
      k0_pay2 (iblk m c 0 ⟨n + 1, hn⟩) (iblk m c 1 ⟨n + 1, hn⟩) (iblk m c 2 ⟨n + 1, hn⟩) (iblk m c 3 ⟨n + 1, hn⟩)
    else
      k0_pay3 (iblk m c 0 ⟨n + 1, hn⟩) (iblk m c 1 ⟨n + 1, hn⟩) (iblk m c 2 ⟨n + 1, hn⟩) (iblk m c 3 ⟨n + 1, hn⟩)
        (acc c n (Nat.lt_of_succ_lt hn))

/-- `acc` at the first tile of an expert. -/
theorem acc_first (c : Dev nD) (t : Fin cfg0.N) (h0 : t.val % 16 = 0) :
    acc m c t.val t.isLt = k0_pay2 (iblk m c 0 t) (iblk m c 1 t) (iblk m c 2 t) (iblk m c 3 t) := by
  obtain ⟨n, hn⟩ := t
  cases n with
  | zero => exact rfl
  | succ n => exact (if_pos h0).trans rfl

/-- `acc` at a later tile: the tile before's contents plus this tile's partial product. -/
theorem acc_later (c : Dev nD) (t : Fin cfg0.N) (h0 : ¬t.val % 16 = 0) :
    acc m c t.val t.isLt = k0_pay3 (iblk m c 0 t) (iblk m c 1 t) (iblk m c 2 t) (iblk m c 3 t)
      (acc m c (t.val - 1) (Nat.lt_of_le_of_lt (Nat.sub_le _ _) t.isLt)) := by
  obtain ⟨n, hn⟩ := t
  cases n with
  | zero => exact absurd (Nat.zero_mod _) h0
  | succ n => exact (if_neg h0).trans rfl

/-- The proof data on core `c`: the arrays as the region finds them; after the body each input's buffer at its block
    and the output's at `acc`; the invariant the scoped rest and the generator register; nothing owed; the packed
    weights' share dealt in halves to the two windows on it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => acc m c t.val t.isLt
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = acc m c t.val t.isLt := by dsimp only [dats]

theorem q_0 (c : Dev nD) : (dats m 0 c).q 0 = fullShare := by dsimp only [dats]
theorem q_1 (c : Dev nD) : (dats m 0 c).q 1 = fullShare.left := by dsimp only [dats]
theorem q_2 (c : Dev nD) : (dats m 0 c).q 2 = fullShare.right := by dsimp only [dats]
theorem q_3 (c : Dev nD) : (dats m 0 c).q 3 = fullShare := by dsimp only [dats]
theorem Φ_eq (c : Dev nD) (t : Fin (cfg0.N + 1)) : (dats m 0 c).Φ t = Pipeline.ΦA spec0 c := by dsimp only [dats]
theorem owed_eq (c : Dev nD) (t : Fin (cfg0.N + 1)) : (dats m 0 c).owed t = 0 := by dsimp only [dats]

end Cert.Kernel.Hand

end
-- ==== Proof.K.LaunchAux.lean ====
/-
  The arrays' side of the expert kernel's launch: the four buffers behind the five windows' arrays, and the packed
  weights' share dealt in halves.

  The five windows sit on FOUR buffers: the token blocks, the packed gate/up weights (two windows), the down weights
  and the output. Held whole at the full share, those four buffers make the pipeline's five arrays once the packed
  weights' full share is cut into its left half (the gate window's) and its right half (the up window's); the two
  halves, at the same contents, join back to the full share.
-/
import proofs.«145822_j8916352106544_2_alg».proof.Proof.K.Data
import Idealize.ShloMosaic.Lib.Pipeline.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

namespace Launch

/-- The buffers behind the windows' arrays, listed: the token blocks, the packed weights, the down weights, the output. -/
theorem arrBufs_eq (c : Dev nD) (B : (b : Ref sig .tc) → Buf (Elt F) ((c : Thread nD τ).loc b)) :
    (Pipeline.arrBufs (Ix := Unit) (Name := ℕ) (U := UR sig nD τ) (Lvl := ℕ) spec0 c B : sProp 𝕄)
      = iprop((((c : Thread nD τ).loc main_v1) ↦{fullShare} B main_v1) ∗ (((c : Thread nD τ).loc main_arg1) ↦{fullShare} B main_arg1)
          ∗ (((c : Thread nD τ).loc main_arg2) ↦{fullShare} B main_arg2) ∗ (((c : Thread nD τ).loc main_v2) ↦{fullShare} B main_v2)) := by
  unfold Pipeline.arrBufs
  exact bigSep_eq_bigSepL_of_eq [main_v1, main_arg1, main_arg2, main_v2] (by decide) (by decide) _

/-- The shares the windows' arrays are held at: the packed weights' in halves, the others whole. -/
theorem share_0 (c : Dev nD) : (dats m 0 c).share 0 = fullShare := rfl
theorem share_1 (c : Dev nD) : (dats m 0 c).share 1 = fullShare.left := rfl
theorem share_2 (c : Dev nD) : (dats m 0 c).share 2 = fullShare.right := rfl
theorem share_3 (c : Dev nD) : (dats m 0 c).share 3 = fullShare := rfl
theorem share_4 (c : Dev nD) : (dats m 0 c).share 4 = fullShare := rfl

/-- The pipeline's five arrays at contents `G`, one by one. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_v1) ↦{fullShare} G 0) ∗ (((c : Thread nD τ).loc main_arg1) ↦{fullShare.left} G 1)
          ∗ (((c : Thread nD τ).loc main_arg1) ↦{fullShare.right} G 2) ∗ (((c : Thread nD τ).loc main_arg2) ↦{fullShare} G 3)
          ∗ (((c : Thread nD τ).loc main_v2) ↦{fullShare} G 4)) := by
  unfold Dat.arrays
  rw [bigSep_W0, share_0, share_1, share_2, share_3, share_4,
    (arr_whole0 0).set_eq_univ, (arr_whole0 1).set_eq_univ, (arr_whole0 3).set_eq_univ, (arr_whole0 4).set_eq_univ]

/-- Each array at the region's entry is its buffer as the region finds it. -/
theorem arrAt_zero (c : Dev nD) (w : Fin cfg0.W) : (dats m 0 c).arrAt w 0 = V m c (Pipeline.arrRef spec0 w) := rfl

/-- An input's array is never written: at the region's exit it is as the region found it. -/
theorem arrAt_end_0 (c : Dev nD) : (dats m 0 c).arrAt 0 cfg0.N = V m c main_v1 := (dats (F := F) m 0 c).arrAt_in 0 rfl _
theorem arrAt_end_1 (c : Dev nD) : (dats m 0 c).arrAt 1 cfg0.N = V m c main_arg1 := (dats (F := F) m 0 c).arrAt_in 1 rfl _
theorem arrAt_end_2 (c : Dev nD) : (dats m 0 c).arrAt 2 cfg0.N = V m c main_arg1 := (dats (F := F) m 0 c).arrAt_in 2 rfl _
theorem arrAt_end_3 (c : Dev nD) : (dats m 0 c).arrAt 3 cfg0.N = V m c main_arg2 := (dats (F := F) m 0 c).arrAt_in 3 rfl _

/-- ENTRY: the four buffers, whole at the full share as the region finds them, make the five arrays at their entry
    contents, the packed weights' share cut in halves. -/
theorem arrays_of_arrBufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq]
  simp only [arrAt_zero]
  iintro ⟨H0, H1, H3, H4⟩
  ihave H1' := (pointsTo_share (PosShare.mem_left_op_right fullShare)).1 $$ H1
  icases H1' with ⟨H1l, H1r⟩
  isplitl [H0]; · iexact H0
  isplitl [H1l]; · iexact H1l
  isplitl [H1r]; · iexact H1r
  isplitl [H3]; · iexact H3
  iexact H4

end Launch

/-- Core `c`'s unscoped buffers when the region is left: as the region found them, the output's array at what the
    write-backs of all the points made it. -/
def W (c : Dev nD) : Valuation τ sig (Elt F) :=
  Function.update (StableHlo.after hostOps0 (V₀ m c)) (Proc.devRef .tc main_v2) ((dats m 0 c).arrAt 4 cfg0.N)

theorem W_main_v2 (c : Dev nD) : W m c (Proc.devRef .tc main_v2) = (dats m 0 c).arrAt 4 cfg0.N :=
  Function.update_self ..

/-- Every other buffer ends as the region found it. -/
theorem W_of_ne (c : Dev nD) (b : Ref sig .tc) (hb : b ≠ main_v2) : W m c (Proc.devRef .tc b) = V m c b :=
  Function.update_of_ne (StableHlo.devRef_ne_of_ne hb) ..

namespace Launch

/-- EXIT: the five arrays at their final contents make the four buffers whole at the full share at `W`: the two
    windows on the packed weights end at the same contents and their halves join. -/
theorem arrBufs_of_arrays (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => W m c (Proc.devRef .tc b)) := by
  rw [arrBufs_eq, arrays_eq]
  simp only [arrAt_end_0, arrAt_end_1, arrAt_end_2, arrAt_end_3]
  rw [W_of_ne m c main_v1 (by decide), W_of_ne m c main_arg1 (by decide), W_of_ne m c main_arg2 (by decide), W_main_v2]
  iintro ⟨H0, H1l, H1r, H3, H4⟩
  ihave H1 := (pointsTo_share (PosShare.mem_left_op_right fullShare)).2 $$ [H1l H1r]
  · isplitl [H1l] <;> iassumption
  isplitl [H0]; · iexact H0
  isplitl [H1]; · iexact H1
  isplitl [H3]; · iexact H3
  iexact H4

/-- The cast and the regrouping write their results only; -/
theorem not_written0 (b : Ref sig .tc) (hb : b ≠ main_v0 ∧ b ≠ main_v1) :
    ∀ op ∈ (hostOps0 (F := F)), Proc.devRef .tc b ∉ op.writes := by
  obtain ⟨h0, h1⟩ := hb
  intro op hop
  simp only [List.mem_cons, List.mem_nil_iff, or_false] at hop
  rcases hop with rfl | rfl <;>
    simp only [StableHlo.unary_writes, StableHlo.reshape_writes, Finset.mem_singleton] <;>
    exact StableHlo.devRef_ne_of_ne ‹_›

/-- and the last regrouping its result only. -/
theorem not_written1 (b : Ref sig .tc) (hb : b ≠ main_v3) :
    ∀ op ∈ (hostOps1 (F := F)), Proc.devRef .tc b ∉ op.writes := by
  intro op hop
  simp only [List.mem_cons, List.mem_nil_iff, or_false] at hop
  obtain rfl := hop
  simp only [StableHlo.reshape_writes, Finset.mem_singleton]
  exact StableHlo.devRef_ne_of_ne hb

/-- An argument reaches the region as launched, -/
theorem V_arg (c : Dev nD) (b : Ref sig .tc) (hb : b ≠ main_v0 ∧ b ≠ main_v1) : V m c b = m ((c : Thread nD τ).loc b) :=
  StableHlo.after_of_forall_not_mem (b := Proc.devRef .tc b) hostOps0 (V₀ m c) (not_written0 b hb)

/-- and the end as it reached the region. -/
theorem end_arg (c : Dev nD) (b : Ref sig .tc) (hb : b ≠ main_v0 ∧ b ≠ main_v1 ∧ b ≠ main_v2 ∧ b ≠ main_v3) :
    StableHlo.after hostOps1 (W m c) (Proc.devRef .tc b) = m ((c : Thread nD τ).loc b) :=
  (StableHlo.after_of_forall_not_mem (b := Proc.devRef .tc b) hostOps1 (W m c) (not_written1 b hb.2.2.2)).trans
    ((W_of_ne m c b hb.2.2.1).trans (V_arg m c b ⟨hb.1, hb.2.1⟩))

end Launch

end Cert.Kernel.Hand

end
-- ==== Proof.K.Launch.lean ====
/-
  The launch of the expert kernel's program: the two host operations before the region, the region, the host
  operation after it.

  The program casts the tokens and regroups them by expert, runs the kernel region over the 16 x 16 grid, and regroups
  the region's output. Its run, for any float instance, from the body obligation: from any memory whose semaphore
  counters are zero, every weakly fair execution on the TensorCores terminates, and every final state has the result
  at the last regrouping of the output array as the write-backs of all the points made it, and the three arguments as
  launched. Between the segments a core holds its unscoped buffers whole at a valuation, what it owes (nothing) and
  its generator register; the region takes the four buffers behind its five arrays (the packed weights' share in
  halves), the register into its invariant, and lets the other three buffers bypass.
-/
import proofs.«145822_j8916352106544_2_alg».proof.Proof.K.LaunchAux

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

namespace Launch

/-- The staging cells' algebra is the whole of the user algebra. -/
abbrev EP : Emb (UR sig nD τ) (MT nD τ sig Unit (Elt F) ℕ (UR sig nD τ) ℕ) := emb₁

/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm

/-- What rides beside the buffers through the host operations: what the core owes, and its generator register. -/
abbrev R (c : Dev nD) : sProp 𝕄 :=
  iprop((∃ T, owes (c : Thread nD τ) (0 : CellTallies nD τ sig Unit) T) ∗ ∃ r, prngReg c r)

/-- THE FIRST HOST SEGMENT: the cast and the regrouping, over the unscoped buffers. -/
def seg0 : Pipeline.HostSeg (Name := ℕ) (U := UR sig nD τ) (pcfgs (F := F)) defs₀ Variants.none L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) R

/-- THE LAST HOST SEGMENT: the output's regrouping, from the buffers as the region left them. -/
def seg1 : Pipeline.HostSeg (Name := ℕ) (U := UR sig nD τ) (pcfgs (F := F)) defs₀ Variants.none L lv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (W m) R

/-- The unscoped buffers that are no window's array are the same at `W` as the region found them. -/
theorem unscopedRest_W (c : Dev nD) :
    (Pipeline.unscopedRest (Ix := Unit) (Name := ℕ) (U := UR sig nD τ) (Lvl := ℕ) spec0 c (fun b => W m c (Proc.devRef .tc b)) : sProp 𝕄)
      = Pipeline.unscopedRest spec0 c (V m c) := by
  rw [unscopedRest0_eq, unscopedRest0_eq, W_of_ne m c main_arg0 (by decide), W_of_ne m c main_v0 (by decide), W_of_ne m c main_v3 (by decide)]

set_option backward.isDefEq.respectTransparency.types false in
/-- THE REGION: the decided layout, no semaphore of the kernel's own, the body obligation; entered from what the first
    host segment left — the four buffers behind the arrays into the pipeline, the generator register into the
    invariant, the other three buffers bypassing —, left with the buffers whole again at `W`. -/
def reg0 (hbody : ∀ c, BodyObligation (dats (F := F) m 0 c) (defs₀ (F := F)) Variants.none () Set.univ) :
    Pipeline.RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (hbody c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (W m c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [show StableHlo.held (c : Thread nD τ) (Pipeline.ucRefs τ sig) (StableHlo.after hostOps0 (V₀ m c)) = unscopedBufs c (V m c) from (Pipeline.unscopedBufs_held c _).symm,
      Pipeline.unscopedBufs_split₀ cfgs 0 winFacts₀0.arr_unscoped c (V m c)]
    iintro ⟨⟨⟨Ha, Hr⟩, HO, Hp⟩, -, -⟩
    ihave Ha' := (arrays_of_arrBufs m c) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitl [Hp]; · iexact Hp
    iexact Hr
  hin c := by
    rw [Φ_eq]; unfold Pipeline.ΦA
    iintro ⟨Hp, -, Hr⟩
    isplitl [Hr] <;> iassumption
  hout c := by
    rw [Φ_eq, Pipeline.ownSems0_none]; unfold Pipeline.ΦA
    iintro ⟨Hr, Hp⟩
    isplitl [Hp]; · iexact Hp
    isplitr; · iempintro
    iexact Hr
  hexit c := by
    rw [show StableHlo.held (c : Thread nD τ) (Pipeline.ucRefs τ sig) (W m c) = unscopedBufs c (fun b => W m c (Proc.devRef .tc b)) from (Pipeline.unscopedBufs_held c _).symm,
      Pipeline.unscopedBufs_split₀ cfgs 0 winFacts₀0.arr_unscoped c (fun b => W m c (Proc.devRef .tc b)), unscopedRest_W]
    iintro ⟨Ha, HO, Hp, Hr⟩
    ihave Ha' := (arrBufs_of_arrays m c) $$ Ha
    imodintro
    isplitr [HO Hp]
    · isplitl [Ha'] <;> iassumption
    isplitl [HO]
    · unfold Pipeline.Dat.owesAt Pipeline.owesWithin
      icases HO with ⟨%T, -, HO⟩; iexists T; iexact HO
    iexact Hp

end Launch

namespace Launch

/-- @main as the list of the three. -/
abbrev segs (hbody : ∀ c, BodyObligation (dats (F := F) m 0 c) (defs₀ (F := F)) Variants.none () Set.univ) :
    List (Pipeline.Seg (pcfgs (F := F)) adm (dats m) () defs₀ Variants.none L lv) :=
  [.host (seg0 m), .region (reg0 m hbody), .host (seg1 m)]

/-- What the last host segment leaves: the unscoped buffers after the output's regrouping, and the generator register. -/
abbrev Tₙ (c : Dev nD) : sProp 𝕄 :=
  iprop(StableHlo.held (c : Thread nD τ) (Pipeline.ucRefs τ sig) (StableHlo.after hostOps1 (W m c)) ∗ ∃ r, prngReg c r)

end Launch

set_option backward.isDefEq.respectTransparency.types false in
/-- At the compiled mesh, for any float values, from any memory with zero counters, given the body obligation: every
    weakly fair execution of @main on the TensorCores terminates, and every final state has the result at the
    regrouping of the output array as the region left it, and the three arguments as launched. -/
theorem run_main (hbody : ∀ c, BodyObligation (dats (F := F) m 0 c) (defs₀ (F := F)) Variants.none () Set.univ) :
    θ_run defs (onTc (τ := τ) (main (F := F))) ⟨m, fun _ => 0, ρ⟩ (fun r => ∀ c : Dev nD,
      r.2.mem ((c : Thread nD τ).loc main_v3) = StableHlo.after hostOps1 (W m c) main_v3
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  Pipeline.θ_run_regions_kit (pcfgs (F := F)) Launch.adm (dats m) () cellOf_inj Launch.EP defs₀ Variants.none Launch.L Launch.lv m ρ main (Launch.segs m hbody)
    (fun c Q => by rw [main_segs Launch.adm (dats m) () Variants.none Launch.L Launch.lv (Launch.seg0 m) (Launch.seg1 m) (Launch.reg0 m hbody) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ Launch.R c)) (Tₙ := Launch.Tₙ m)
    (hch := ⟨fun _ => .rfl, fun _ => .rfl, fun _ => .rfl, fun c => by
      change iprop(StableHlo.held (c : Thread nD τ) (Pipeline.ucRefs τ sig) (StableHlo.after hostOps1 (W m c)) ∗ Launch.R c) ⊢ _
      iintro ⟨Hh, HO, Hp⟩
      isplitr [HO]
      · isplitl [Hh] <;> iassumption
      iexact HO⟩)
    (hinit := by
      refine Pipeline.initEach Launch.L Launch.lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, Hp, -⟩, -⟩
      imodintro
      isplitl [Hh]; · iexact Hh
      isplitl [HO]; · iexists ∅; iexact HO
      iexists _; iexact Hp)
    (QY := fun c s => s.mem ((c : Thread nD τ).loc main_v3) = StableHlo.after hostOps1 (W m c) main_v3
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2))
    (hfin := fun c s' => by
      dsimp only [Launch.Tₙ]
      rw [show StableHlo.held (c : Thread nD τ) (Pipeline.ucRefs τ sig) (StableHlo.after hostOps1 (W m c))
          = unscopedBufs c (fun b => StableHlo.after hostOps1 (W m c) (Proc.devRef .tc b)) from (Pipeline.unscopedBufs_held c _).symm,
        Pipeline.unscopedBufs_split₀ cfgs 0 winFacts₀0.arr_unscoped c, Launch.arrBufs_eq, unscopedRest0_eq]
      iintro ⟨⟨⟨⟨-, H1, H2, -⟩, H0, -, H3⟩, -⟩, HSI⟩
      icombine HSI H3 gives %h3
      icombine HSI H0 gives %h0
      icombine HSI H1 gives %h1
      icombine HSI H2 gives %h2
      imodintro
      isplitr
      · ipureintro
        refine ⟨Buf.eq_of_forall_mem_univ h3, ?_, ?_, ?_⟩
        · exact (Buf.eq_of_forall_mem_univ h0).trans (Launch.end_arg m c main_arg0 (by decide))
        · exact (Buf.eq_of_forall_mem_univ h1).trans (Launch.end_arg m c main_arg1 (by decide))
        · exact (Buf.eq_of_forall_mem_univ h2).trans (Launch.end_arg m c main_arg2 (by decide))
      iexact HSI)
    (hQ := fun _ h => h)

end Cert.Kernel.Hand

end
-- ==== Proof.K.Runs.lean ====
/-
  What the two runs of the body share.

  The body branches twice on the tile coordinate k of the point t = 16 e + k: the first branch is taken when k = 0
  and overwrites the output block with the tile's partial product, the second when k ≠ 0 and adds the partial product
  to the block. Exactly one is taken at every point, so the output's staging buffer is stored at every point. Both
  conditions are given in closed form, and each window's current staging memref is named.
-/
import proofs.«145822_j8916352106544_2_alg».proof.Proof.K.Data
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch is taken at the first tile of an expert only. -/
theorem hcond1 : ∀ t : Fin cfg0.N, k0_cond1 (grid0.coords t) = 1#1 ↔ t.val % 16 = 0 :=
  (by decide +kernel : ∀ t : Fin grid0.N, k0_cond1 (grid0.coords t) = 1#1 ↔ t.val % 16 = 0)

/-- The second branch is taken at every later tile. -/
theorem hcond2 : ∀ t : Fin cfg0.N, k0_cond2 (grid0.coords t) = 1#1 ↔ ¬t.val % 16 = 0 :=
  (by decide +kernel : ∀ t : Fin grid0.N, k0_cond2 (grid0.coords t) = 1#1 ↔ ¬t.val % 16 = 0)

/-- One of the two branches is taken whatever the tile coordinate: the output window is stored at every point. -/
theorem live4 (i : cfg0.grid.Coords) : cfg0.idle 4 i = false :=
  (by decide +kernel : ∀ k : Fin 16,
    (!(Scalar.cmpi .ne (Scalar.extui (Scalar.cmpi .eq (BitVec.ofNat 32 k.val) 0#32)) 0#32 == 1#1)
      && !(Scalar.cmpi .ne (Scalar.extui (Scalar.cmpi .ne (BitVec.ofNat 32 k.val) 0#32)) 0#32 == 1#1)) = false) (i 1)

/-- The zero offsets of a whole-block access. -/
theorem hz : (![0, 0, 0] : Fin 3 → Nat) = fun _ => 0 := funext fun a => by fin_cases a <;> rfl

/-- Each window's current staging memref at point `t`, and its wholeness. -/
abbrev ms0_0 (t : Fin cfg0.N) : Memref sig .tc .vmem S1x512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x2048 .f32 := win0_4.stage (cfg0.slots t 4)
abbrev hs0_4 (t : Fin cfg0.N) : (ms0_4 t).IsWhole := hstage0_4 ((cfg0.slots t 4).cast nbuf0_4)

end Cert.Kernel.Hand

end
-- ==== Proof.K.RunA.lean ====
/-
  The body at the first tile of an expert (k = 0).

  On whole staging memrefs, the four inputs' at their contents and the output's at anything, the body reads the four
  input blocks, takes the first branch and not the second, and overwrites the whole output block with the tile's
  partial product: the inputs' buffers are handed back as they were, the output's holds `k0_pay2` of the four blocks.
-/
import proofs.«145822_j8916352106544_2_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple when the first branch is taken and the second is not. The one store covers the whole block, so
    what the output's buffer reads back is the store's payload, whatever it held; each load through the whole-block
    rectangle reads the buffer's contents. -/
theorem kernelRun0_A (c : Dev nD) (i : grid0.Coords)
    (arg2 : Memref sig .tc .vmem S1x512x2048 .bf16) (harg2 : arg2.IsWhole)
    (arg3 : Memref sig .tc .vmem S1x256x2048 .f32) (harg3 : arg3.IsWhole)
    (arg4 : Memref sig .tc .vmem S1x256x2048 .f32) (harg4 : arg4.IsWhole)
    (arg5 : Memref sig .tc .vmem S1x2048x256 .f32) (harg5 : arg5.IsWhole)
    (arg6 : Memref sig .tc .vmem S1x512x2048 .f32) (harg6 : arg6.IsWhole)
    (hc1 : k0_cond1 i = 1#1) (hc2 : ¬k0_cond2 i = 1#1)
    (x0 : Vec F S1x512x2048 .bf16) (x2 x5 : Vec F S1x256x2048 .f32) (x8 : Vec F S1x2048x256 .f32)
    (E : Set ℕ) (K : PUnit → sProp 𝕄) :
    iprop(owns (c : Thread nD τ) arg2 fullShare x0 ∗ owns (c : Thread nD τ) arg3 fullShare x2
        ∗ owns (c : Thread nD τ) arg4 fullShare x5 ∗ owns (c : Thread nD τ) arg5 fullShare x8
        ∗ (∃ d, owns (c : Thread nD τ) arg6 fullShare d)
        ∗ (iprop(owns (c : Thread nD τ) arg2 fullShare x0 ∗ owns (c : Thread nD τ) arg3 fullShare x2
            ∗ owns (c : Thread nD τ) arg4 fullShare x5 ∗ owns (c : Thread nD τ) arg5 fullShare x8
            ∗ owns (c : Thread nD τ) arg6 fullShare (k0_pay2 x0 x2 x5 x8)) -∗ K ⟨⟩))
      ⊢ wp frame (wpE (defs₀ (F := F)) Variants.none c none) E
          (cc0__moe_kernel i arg2 harg2 arg3 harg3 arg4 harg4 arg5 harg5 arg6 harg6) K := by
  simp only [cc0__moe_kernel_eq_skeleton]; unfold cc0__moe_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1
  obtain rfl := harg4.eq_unread hf2; obtain rfl := harg5.eq_unread hf3
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact H4
  ipureintro
  rw [View.read_writes_eq_canon _ _ _ (fun y => ⟨_, List.mem_singleton_self _, View.mem_set_unit_zero hz inb_S1x512x2048_S1x512x2048_0_0_0 y⟩),
    View.canon_unit_zero hz]
  simp only [View.readAt_eq_ld, hf0, hf1, hf2, hf3, View.ld_unit_zero (S := S1x512x2048) hz,
    View.ld_unit_zero (S := S1x256x2048) hz, View.ld_unit_zero (S := S1x2048x256) hz]

end Cert.Kernel.Hand

end
-- ==== Proof.K.RunB.lean ====
/-
  The body at a later tile of an expert (k ≠ 0).

  On whole staging memrefs, the four inputs' at their contents and the output's at the contents `xo` the tiles before
  left, the body reads the four input blocks, skips the first branch, takes the second, reads the output block and
  overwrites it whole with its contents plus the tile's partial product: the inputs' buffers are handed back as they
  were, the output's holds `k0_pay3` of the four blocks and `xo`.
-/
import proofs.«145822_j8916352106544_2_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple when the second branch is taken and the first is not. The one store covers the whole block, so
    what the output's buffer reads back is the store's payload; each load through the whole-block rectangle reads the
    buffer's contents, the output's among them. -/
theorem kernelRun0_B (c : Dev nD) (i : grid0.Coords)
    (arg2 : Memref sig .tc .vmem S1x512x2048 .bf16) (harg2 : arg2.IsWhole)
    (arg3 : Memref sig .tc .vmem S1x256x2048 .f32) (harg3 : arg3.IsWhole)
    (arg4 : Memref sig .tc .vmem S1x256x2048 .f32) (harg4 : arg4.IsWhole)
    (arg5 : Memref sig .tc .vmem S1x2048x256 .f32) (harg5 : arg5.IsWhole)
    (arg6 : Memref sig .tc .vmem S1x512x2048 .f32) (harg6 : arg6.IsWhole)
    (hc1 : ¬k0_cond1 i = 1#1) (hc2 : k0_cond2 i = 1#1)
    (x0 : Vec F S1x512x2048 .bf16) (x2 x5 : Vec F S1x256x2048 .f32) (x8 : Vec F S1x2048x256 .f32)
    (xo : Vec F S1x512x2048 .f32)
    (E : Set ℕ) (K : PUnit → sProp 𝕄) :
    iprop(owns (c : Thread nD τ) arg2 fullShare x0 ∗ owns (c : Thread nD τ) arg3 fullShare x2
        ∗ owns (c : Thread nD τ) arg4 fullShare x5 ∗ owns (c : Thread nD τ) arg5 fullShare x8
        ∗ owns (c : Thread nD τ) arg6 fullShare xo
        ∗ (iprop(owns (c : Thread nD τ) arg2 fullShare x0 ∗ owns (c : Thread nD τ) arg3 fullShare x2
            ∗ owns (c : Thread nD τ) arg4 fullShare x5 ∗ owns (c : Thread nD τ) arg5 fullShare x8
            ∗ owns (c : Thread nD τ) arg6 fullShare (k0_pay3 x0 x2 x5 x8 xo)) -∗ K ⟨⟩))
      ⊢ wp frame (wpE (defs₀ (F := F)) Variants.none c none) E
          (cc0__moe_kernel i arg2 harg2 arg3 harg3 arg4 harg4 arg5 harg5 arg6 harg6) K := by
  simp only [cc0__moe_kernel_eq_skeleton]; unfold cc0__moe_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1
  obtain rfl := harg4.eq_unread hf2; obtain rfl := harg5.eq_unread hf3
  obtain rfl := harg6.eq_unread hf4
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact H4
  ipureintro
  rw [View.read_writes_eq_canon _ _ _ (fun y => ⟨_, List.mem_singleton_self _, View.mem_set_unit_zero hz inb_S1x512x2048_S1x512x2048_0_0_0 y⟩),
    View.canon_unit_zero hz]
  simp only [View.readAt_eq_ld, hf0, hf1, hf2, hf3, hf4, View.ld_unit_zero (S := S1x512x2048) hz,
    View.ld_unit_zero (S := S1x256x2048) hz, View.ld_unit_zero (S := S1x2048x256) hz]

end Cert.Kernel.Hand

end
-- ==== Proof.K.Body.lean ====
/-
  The body obligation of the pipeline.

  Before the body at point t = 16 e + k each input's current staging buffer holds its block there, fetched at this
  point or kept from the point before (the token block moves only with e, the three weight tiles at every point).
  The output's buffer, at k ≠ 0, holds what the body left at the point before: the block is written back only after
  the last tile, and the body stores it at every point. At k = 0 the body overwrites it with the tile's partial
  product, at k ≠ 0 it adds the partial product to it: in both cases it leaves `acc` at t.
-/
import proofs.«145822_j8916352106544_2_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the buffers hold before the body -/

/-- Each input's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- At a later tile the output's current staging buffer holds what the body left at the tile before: the point is not
    the first, the block is written back after the last tile only, and the body stores it at every point. -/
theorem before_4 (c : Dev nD) (t : Fin cfg0.N) (h0 : ¬t.val % 16 = 0) (d) :
    (dats m 0 c).before 4 t d = acc m c (t.val - 1) (Nat.lt_of_le_of_lt (Nat.sub_le _ _) t.isLt) := by
  have hN : t.val < 256 := lt_of_lt_of_eq t.isLt (show cfg0.N = 256 from N_0)
  rw [Dat.before_out_kept _ 4 rfl t (by omega)
    (Bool.eq_false_iff.mpr fun h => by have := (flush0_4 _).mp h; dsimp only at this; omega)
    live4 (fun _ _ => rfl)]
  exact after_4 m c _

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 800000 in
/-- The body at any point: the inputs' buffers hold their blocks; the closed forms of the two conditions say which
    branch the point takes; at a later tile the output's buffer holds what the tile before left; so the run of that
    case applies, and what it leaves is `acc` at the point. The invariant passes through unread; nothing is owed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  by_cases h0 : t.val % 16 = 0
  · rw [acc_first m c t h0]
    iintro ⟨HΦ, Ho, ⟨%d0, H0⟩, ⟨%d1, H1⟩, ⟨%d2, H2⟩, ⟨%d3, H3⟩, ⟨%d4, H4⟩⟩
    iapply (kernelRun0_A c (grid0.coords t) _ _ _ _ _ _ _ _ _ _ ((hcond1 t).mpr h0) (fun h => (hcond2 t).mp h h0)
      (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc_later m c t h0]
    simp only [before_4 m c t h0]
    iintro ⟨HΦ, Ho, ⟨%d0, H0⟩, ⟨%d1, H1⟩, ⟨%d2, H2⟩, ⟨%d3, H3⟩, ⟨%d4, H4⟩⟩
    iapply (kernelRun0_B c (grid0.coords t) _ _ _ _ _ _ _ _ _ _ (fun h => h0 ((hcond1 t).mp h)) ((hcond2 t).mpr h0)
      (iblk m c 0 t) (iblk m c 1 t) (iblk m c 2 t) (iblk m c 3 t) _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point: the windows conjoined one by one, the output window never idle. -/
theorem body_obligation (c : Dev nD) : BodyObligation (dats (F := F) m 0 c) (defs₀ (F := F)) Variants.none () Set.univ := fun t => by
  rw [bigSep_W0, bigSep_W0]
  rw [live4 (cfg0.grid.coords t)]
  exact sound_body m c t

end Cert.Kernel.Hand

end
-- ==== Proof.KI.Data.lean ====
/-
  The proof data of the one pipeline of the expert kernel, for any float instance.

  The region runs over a 16 x 16 grid, point t = 16 e + k: expert e, tile k of the intermediate axis. Window 0 is
  expert e's token block, windows 1 and 2 are tile k of the gate rows and of the up rows of ONE array (the packed
  gate/up weights, handed to the kernel twice), window 3 is tile k of the down weights' columns, window 4 the
  expert's output block, kept in its staging buffer over the sixteen tiles and written back after the last.
  What the output's staging buffer holds after point t (`acc`): at k = 0 the tile's partial product, at k > 0 the
  previous contents plus the tile's partial product. The two windows on the packed weights hold the two halves of
  that array's share.
-/
import proofs.«145822_j8916352106544_2_alg».proof.Proof.Gen.KernelIdeal.Launch
import proofs.«145822_j8916352106544_2_alg».proof.Proof.Gen.KernelIdeal.Skeleton
import proofs.«145822_j8916352106544_2_alg».proof.Proof.Gen.KernelIdeal.Points
import Idealize.ShloMosaic.Lib.Pipeline.FrameBody
import Idealize.ShloMosaic.Lib.Pipeline.Frame

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffers at launch, as the host operations' valuation; -/
abbrev V₀ (c : Dev nD) : Valuation τ sig (Elt F) := fun b => m ((c : Dev nD), b)
/-- and when the region is entered: the cast of the tokens and its regrouping by expert have run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the output's staging buffer holds after the body at position `n`: at the first tile of an expert the tile's
    partial product, at a later tile the contents the tile before left plus the tile's partial product. -/
def acc (c : Dev nD) : (n : ℕ) → n < cfg0.N → FVec F S1x512x2048 .f32
  | 0, hn => k0_pay2 (iblk m c 0 ⟨0, hn⟩) (iblk m c 1 ⟨0, hn⟩) (iblk m c 2 ⟨0, hn⟩) (iblk m c 3 ⟨0, hn⟩)
  | n + 1, hn =>
    if (n + 1) % 16 = 0 then
      k0_pay2 (iblk m c 0 ⟨n + 1, hn⟩) (iblk m c 1 ⟨n + 1, hn⟩) (iblk m c 2 ⟨n + 1, hn⟩) (iblk m c 3 ⟨n + 1, hn⟩)
    else
      k0_pay3 (iblk m c 0 ⟨n + 1, hn⟩) (iblk m c 1 ⟨n + 1, hn⟩) (iblk m c 2 ⟨n + 1, hn⟩) (iblk m c 3 ⟨n + 1, hn⟩)
        (acc c n (Nat.lt_of_succ_lt hn))

/-- `acc` at the first tile of an expert. -/
theorem acc_first (c : Dev nD) (t : Fin cfg0.N) (h0 : t.val % 16 = 0) :
    acc m c t.val t.isLt = k0_pay2 (iblk m c 0 t) (iblk m c 1 t) (iblk m c 2 t) (iblk m c 3 t) := by
  obtain ⟨n, hn⟩ := t
  cases n with
  | zero => exact rfl
  | succ n => exact (if_pos h0).trans rfl

/-- `acc` at a later tile: the tile before's contents plus this tile's partial product. -/
theorem acc_later (c : Dev nD) (t : Fin cfg0.N) (h0 : ¬t.val % 16 = 0) :
    acc m c t.val t.isLt = k0_pay3 (iblk m c 0 t) (iblk m c 1 t) (iblk m c 2 t) (iblk m c 3 t)
      (acc m c (t.val - 1) (Nat.lt_of_le_of_lt (Nat.sub_le _ _) t.isLt)) := by
  obtain ⟨n, hn⟩ := t
  cases n with
  | zero => exact absurd (Nat.zero_mod _) h0
  | succ n => exact (if_neg h0).trans rfl

/-- The proof data on core `c`: the arrays as the region finds them; after the body each input's buffer at its block
    and the output's at `acc`; the invariant the scoped rest and the generator register; nothing owed; the packed
    weights' share dealt in halves to the two windows on it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => acc m c t.val t.isLt
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = acc m c t.val t.isLt := by dsimp only [dats]

theorem q_0 (c : Dev nD) : (dats m 0 c).q 0 = fullShare := by dsimp only [dats]
theorem q_1 (c : Dev nD) : (dats m 0 c).q 1 = fullShare.left := by dsimp only [dats]
theorem q_2 (c : Dev nD) : (dats m 0 c).q 2 = fullShare.right := by dsimp only [dats]
theorem q_3 (c : Dev nD) : (dats m 0 c).q 3 = fullShare := by dsimp only [dats]
theorem Φ_eq (c : Dev nD) (t : Fin (cfg0.N + 1)) : (dats m 0 c).Φ t = Pipeline.ΦA spec0 c := by dsimp only [dats]
theorem owed_eq (c : Dev nD) (t : Fin (cfg0.N + 1)) : (dats m 0 c).owed t = 0 := by dsimp only [dats]

end Cert.KernelIdeal.Hand

end
-- ==== Proof.KI.LaunchAux.lean ====
/-
  The arrays' side of the expert kernel's launch: the four buffers behind the five windows' arrays, and the packed
  weights' share dealt in halves.

  The five windows sit on FOUR buffers: the token blocks, the packed gate/up weights (two windows), the down weights
  and the output. Held whole at the full share, those four buffers make the pipeline's five arrays once the packed
  weights' full share is cut into its left half (the gate window's) and its right half (the up window's); the two
  halves, at the same contents, join back to the full share.
-/
import proofs.«145822_j8916352106544_2_alg».proof.Proof.KI.Data
import Idealize.ShloMosaic.Lib.Pipeline.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

namespace Launch

/-- The buffers behind the windows' arrays, listed: the token blocks, the packed weights, the down weights, the output. -/
theorem arrBufs_eq (c : Dev nD) (B : (b : Ref sig .tc) → Buf (Elt F) ((c : Thread nD τ).loc b)) :
    (Pipeline.arrBufs (Ix := Unit) (Name := ℕ) (U := UR sig nD τ) (Lvl := ℕ) spec0 c B : sProp 𝕄)
      = iprop((((c : Thread nD τ).loc main_v1) ↦{fullShare} B main_v1) ∗ (((c : Thread nD τ).loc main_arg1) ↦{fullShare} B main_arg1)
          ∗ (((c : Thread nD τ).loc main_arg2) ↦{fullShare} B main_arg2) ∗ (((c : Thread nD τ).loc main_v2) ↦{fullShare} B main_v2)) := by
  unfold Pipeline.arrBufs
  exact bigSep_eq_bigSepL_of_eq [main_v1, main_arg1, main_arg2, main_v2] (by decide) (by decide) _

/-- The shares the windows' arrays are held at: the packed weights' in halves, the others whole. -/
theorem share_0 (c : Dev nD) : (dats m 0 c).share 0 = fullShare := rfl
theorem share_1 (c : Dev nD) : (dats m 0 c).share 1 = fullShare.left := rfl
theorem share_2 (c : Dev nD) : (dats m 0 c).share 2 = fullShare.right := rfl
theorem share_3 (c : Dev nD) : (dats m 0 c).share 3 = fullShare := rfl
theorem share_4 (c : Dev nD) : (dats m 0 c).share 4 = fullShare := rfl

/-- The pipeline's five arrays at contents `G`, one by one. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_v1) ↦{fullShare} G 0) ∗ (((c : Thread nD τ).loc main_arg1) ↦{fullShare.left} G 1)
          ∗ (((c : Thread nD τ).loc main_arg1) ↦{fullShare.right} G 2) ∗ (((c : Thread nD τ).loc main_arg2) ↦{fullShare} G 3)
          ∗ (((c : Thread nD τ).loc main_v2) ↦{fullShare} G 4)) := by
  unfold Dat.arrays
  rw [bigSep_W0, share_0, share_1, share_2, share_3, share_4,
    (arr_whole0 0).set_eq_univ, (arr_whole0 1).set_eq_univ, (arr_whole0 3).set_eq_univ, (arr_whole0 4).set_eq_univ]

/-- Each array at the region's entry is its buffer as the region finds it. -/
theorem arrAt_zero (c : Dev nD) (w : Fin cfg0.W) : (dats m 0 c).arrAt w 0 = V m c (Pipeline.arrRef spec0 w) := rfl

/-- An input's array is never written: at the region's exit it is as the region found it. -/
theorem arrAt_end_0 (c : Dev nD) : (dats m 0 c).arrAt 0 cfg0.N = V m c main_v1 := (dats (F := F) m 0 c).arrAt_in 0 rfl _
theorem arrAt_end_1 (c : Dev nD) : (dats m 0 c).arrAt 1 cfg0.N = V m c main_arg1 := (dats (F := F) m 0 c).arrAt_in 1 rfl _
theorem arrAt_end_2 (c : Dev nD) : (dats m 0 c).arrAt 2 cfg0.N = V m c main_arg1 := (dats (F := F) m 0 c).arrAt_in 2 rfl _
theorem arrAt_end_3 (c : Dev nD) : (dats m 0 c).arrAt 3 cfg0.N = V m c main_arg2 := (dats (F := F) m 0 c).arrAt_in 3 rfl _

/-- ENTRY: the four buffers, whole at the full share as the region finds them, make the five arrays at their entry
    contents, the packed weights' share cut in halves. -/
theorem arrays_of_arrBufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq]
  simp only [arrAt_zero]
  iintro ⟨H0, H1, H3, H4⟩
  ihave H1' := (pointsTo_share (PosShare.mem_left_op_right fullShare)).1 $$ H1
  icases H1' with ⟨H1l, H1r⟩
  isplitl [H0]; · iexact H0
  isplitl [H1l]; · iexact H1l
  isplitl [H1r]; · iexact H1r
  isplitl [H3]; · iexact H3
  iexact H4

end Launch

/-- Core `c`'s unscoped buffers when the region is left: as the region found them, the output's array at what the
    write-backs of all the points made it. -/
def W (c : Dev nD) : Valuation τ sig (Elt F) :=
  Function.update (StableHlo.after hostOps0 (V₀ m c)) (Proc.devRef .tc main_v2) ((dats m 0 c).arrAt 4 cfg0.N)

theorem W_main_v2 (c : Dev nD) : W m c (Proc.devRef .tc main_v2) = (dats m 0 c).arrAt 4 cfg0.N :=
  Function.update_self ..

/-- Every other buffer ends as the region found it. -/
theorem W_of_ne (c : Dev nD) (b : Ref sig .tc) (hb : b ≠ main_v2) : W m c (Proc.devRef .tc b) = V m c b :=
  Function.update_of_ne (StableHlo.devRef_ne_of_ne hb) ..

namespace Launch

/-- EXIT: the five arrays at their final contents make the four buffers whole at the full share at `W`: the two
    windows on the packed weights end at the same contents and their halves join. -/
theorem arrBufs_of_arrays (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => W m c (Proc.devRef .tc b)) := by
  rw [arrBufs_eq, arrays_eq]
  simp only [arrAt_end_0, arrAt_end_1, arrAt_end_2, arrAt_end_3]
  rw [W_of_ne m c main_v1 (by decide), W_of_ne m c main_arg1 (by decide), W_of_ne m c main_arg2 (by decide), W_main_v2]
  iintro ⟨H0, H1l, H1r, H3, H4⟩
  ihave H1 := (pointsTo_share (PosShare.mem_left_op_right fullShare)).2 $$ [H1l H1r]
  · isplitl [H1l] <;> iassumption
  isplitl [H0]; · iexact H0
  isplitl [H1]; · iexact H1
  isplitl [H3]; · iexact H3
  iexact H4

/-- The cast and the regrouping write their results only; -/
theorem not_written0 (b : Ref sig .tc) (hb : b ≠ main_v0 ∧ b ≠ main_v1) :
    ∀ op ∈ (hostOps0 (F := F)), Proc.devRef .tc b ∉ op.writes := by
  obtain ⟨h0, h1⟩ := hb
  intro op hop
  simp only [List.mem_cons, List.mem_nil_iff, or_false] at hop
  rcases hop with rfl | rfl <;>
    simp only [StableHlo.unary_writes, StableHlo.reshape_writes, Finset.mem_singleton] <;>
    exact StableHlo.devRef_ne_of_ne ‹_›

/-- and the last regrouping its result only. -/
theorem not_written1 (b : Ref sig .tc) (hb : b ≠ main_v3) :
    ∀ op ∈ (hostOps1 (F := F)), Proc.devRef .tc b ∉ op.writes := by
  intro op hop
  simp only [List.mem_cons, List.mem_nil_iff, or_false] at hop
  obtain rfl := hop
  simp only [StableHlo.reshape_writes, Finset.mem_singleton]
  exact StableHlo.devRef_ne_of_ne hb

/-- An argument reaches the region as launched, -/
theorem V_arg (c : Dev nD) (b : Ref sig .tc) (hb : b ≠ main_v0 ∧ b ≠ main_v1) : V m c b = m ((c : Thread nD τ).loc b) :=
  StableHlo.after_of_forall_not_mem (b := Proc.devRef .tc b) hostOps0 (V₀ m c) (not_written0 b hb)

/-- and the end as it reached the region. -/
theorem end_arg (c : Dev nD) (b : Ref sig .tc) (hb : b ≠ main_v0 ∧ b ≠ main_v1 ∧ b ≠ main_v2 ∧ b ≠ main_v3) :
    StableHlo.after hostOps1 (W m c) (Proc.devRef .tc b) = m ((c : Thread nD τ).loc b) :=
  (StableHlo.after_of_forall_not_mem (b := Proc.devRef .tc b) hostOps1 (W m c) (not_written1 b hb.2.2.2)).trans
    ((W_of_ne m c b hb.2.2.1).trans (V_arg m c b ⟨hb.1, hb.2.1⟩))

end Launch

end Cert.KernelIdeal.Hand

end
-- ==== Proof.KI.Launch.lean ====
/-
  The launch of the expert kernel's program: the two host operations before the region, the region, the host
  operation after it.

  The program casts the tokens and regroups them by expert, runs the kernel region over the 16 x 16 grid, and regroups
  the region's output. Its run, for any float instance, from the body obligation: from any memory whose semaphore
  counters are zero, every weakly fair execution on the TensorCores terminates, and every final state has the result
  at the last regrouping of the output array as the write-backs of all the points made it, and the three arguments as
  launched. Between the segments a core holds its unscoped buffers whole at a valuation, what it owes (nothing) and
  its generator register; the region takes the four buffers behind its five arrays (the packed weights' share in
  halves), the register into its invariant, and lets the other three buffers bypass.
-/
import proofs.«145822_j8916352106544_2_alg».proof.Proof.KI.LaunchAux

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

namespace Launch

/-- The staging cells' algebra is the whole of the user algebra. -/
abbrev EP : Emb (UR sig nD τ) (MT nD τ sig Unit (Elt F) ℕ (UR sig nD τ) ℕ) := emb₁

/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm

/-- What rides beside the buffers through the host operations: what the core owes, and its generator register. -/
abbrev R (c : Dev nD) : sProp 𝕄 :=
  iprop((∃ T, owes (c : Thread nD τ) (0 : CellTallies nD τ sig Unit) T) ∗ ∃ r, prngReg c r)

/-- THE FIRST HOST SEGMENT: the cast and the regrouping, over the unscoped buffers. -/
def seg0 : Pipeline.HostSeg (Name := ℕ) (U := UR sig nD τ) (pcfgs (F := F)) defs₀ Variants.none L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) R

/-- THE LAST HOST SEGMENT: the output's regrouping, from the buffers as the region left them. -/
def seg1 : Pipeline.HostSeg (Name := ℕ) (U := UR sig nD τ) (pcfgs (F := F)) defs₀ Variants.none L lv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (W m) R

/-- The unscoped buffers that are no window's array are the same at `W` as the region found them. -/
theorem unscopedRest_W (c : Dev nD) :
    (Pipeline.unscopedRest (Ix := Unit) (Name := ℕ) (U := UR sig nD τ) (Lvl := ℕ) spec0 c (fun b => W m c (Proc.devRef .tc b)) : sProp 𝕄)
      = Pipeline.unscopedRest spec0 c (V m c) := by
  rw [unscopedRest0_eq, unscopedRest0_eq, W_of_ne m c main_arg0 (by decide), W_of_ne m c main_v0 (by decide), W_of_ne m c main_v3 (by decide)]

set_option backward.isDefEq.respectTransparency.types false in
/-- THE REGION: the decided layout, no semaphore of the kernel's own, the body obligation; entered from what the first
    host segment left — the four buffers behind the arrays into the pipeline, the generator register into the
    invariant, the other three buffers bypassing —, left with the buffers whole again at `W`. -/
def reg0 (hbody : ∀ c, BodyObligation (dats (F := F) m 0 c) (defs₀ (F := F)) Variants.none () Set.univ) :
    Pipeline.RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (hbody c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (W m c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [show StableHlo.held (c : Thread nD τ) (Pipeline.ucRefs τ sig) (StableHlo.after hostOps0 (V₀ m c)) = unscopedBufs c (V m c) from (Pipeline.unscopedBufs_held c _).symm,
      Pipeline.unscopedBufs_split₀ cfgs 0 winFacts₀0.arr_unscoped c (V m c)]
    iintro ⟨⟨⟨Ha, Hr⟩, HO, Hp⟩, -, -⟩
    ihave Ha' := (arrays_of_arrBufs m c) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitl [Hp]; · iexact Hp
    iexact Hr
  hin c := by
    rw [Φ_eq]; unfold Pipeline.ΦA
    iintro ⟨Hp, -, Hr⟩
    isplitl [Hr] <;> iassumption
  hout c := by
    rw [Φ_eq, Pipeline.ownSems0_none]; unfold Pipeline.ΦA
    iintro ⟨Hr, Hp⟩
    isplitl [Hp]; · iexact Hp
    isplitr; · iempintro
    iexact Hr
  hexit c := by
    rw [show StableHlo.held (c : Thread nD τ) (Pipeline.ucRefs τ sig) (W m c) = unscopedBufs c (fun b => W m c (Proc.devRef .tc b)) from (Pipeline.unscopedBufs_held c _).symm,
      Pipeline.unscopedBufs_split₀ cfgs 0 winFacts₀0.arr_unscoped c (fun b => W m c (Proc.devRef .tc b)), unscopedRest_W]
    iintro ⟨Ha, HO, Hp, Hr⟩
    ihave Ha' := (arrBufs_of_arrays m c) $$ Ha
    imodintro
    isplitr [HO Hp]
    · isplitl [Ha'] <;> iassumption
    isplitl [HO]
    · unfold Pipeline.Dat.owesAt Pipeline.owesWithin
      icases HO with ⟨%T, -, HO⟩; iexists T; iexact HO
    iexact Hp

end Launch

namespace Launch

/-- @main as the list of the three. -/
abbrev segs (hbody : ∀ c, BodyObligation (dats (F := F) m 0 c) (defs₀ (F := F)) Variants.none () Set.univ) :
    List (Pipeline.Seg (pcfgs (F := F)) adm (dats m) () defs₀ Variants.none L lv) :=
  [.host (seg0 m), .region (reg0 m hbody), .host (seg1 m)]

/-- What the last host segment leaves: the unscoped buffers after the output's regrouping, and the generator register. -/
abbrev Tₙ (c : Dev nD) : sProp 𝕄 :=
  iprop(StableHlo.held (c : Thread nD τ) (Pipeline.ucRefs τ sig) (StableHlo.after hostOps1 (W m c)) ∗ ∃ r, prngReg c r)

end Launch

set_option backward.isDefEq.respectTransparency.types false in
/-- At the compiled mesh, for any float values, from any memory with zero counters, given the body obligation: every
    weakly fair execution of @main on the TensorCores terminates, and every final state has the result at the
    regrouping of the output array as the region left it, and the three arguments as launched. -/
theorem run_main (hbody : ∀ c, BodyObligation (dats (F := F) m 0 c) (defs₀ (F := F)) Variants.none () Set.univ) :
    θ_run defs (onTc (τ := τ) (main (F := F))) ⟨m, fun _ => 0, ρ⟩ (fun r => ∀ c : Dev nD,
      r.2.mem ((c : Thread nD τ).loc main_v3) = StableHlo.after hostOps1 (W m c) main_v3
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  Pipeline.θ_run_regions_kit (pcfgs (F := F)) Launch.adm (dats m) () cellOf_inj Launch.EP defs₀ Variants.none Launch.L Launch.lv m ρ main (Launch.segs m hbody)
    (fun c Q => by rw [main_segs Launch.adm (dats m) () Variants.none Launch.L Launch.lv (Launch.seg0 m) (Launch.seg1 m) (Launch.reg0 m hbody) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ Launch.R c)) (Tₙ := Launch.Tₙ m)
    (hch := ⟨fun _ => .rfl, fun _ => .rfl, fun _ => .rfl, fun c => by
      change iprop(StableHlo.held (c : Thread nD τ) (Pipeline.ucRefs τ sig) (StableHlo.after hostOps1 (W m c)) ∗ Launch.R c) ⊢ _
      iintro ⟨Hh, HO, Hp⟩
      isplitr [HO]
      · isplitl [Hh] <;> iassumption
      iexact HO⟩)
    (hinit := by
      refine Pipeline.initEach Launch.L Launch.lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, Hp, -⟩, -⟩
      imodintro
      isplitl [Hh]; · iexact Hh
      isplitl [HO]; · iexists ∅; iexact HO
      iexists _; iexact Hp)
    (QY := fun c s => s.mem ((c : Thread nD τ).loc main_v3) = StableHlo.after hostOps1 (W m c) main_v3
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2))
    (hfin := fun c s' => by
      dsimp only [Launch.Tₙ]
      rw [show StableHlo.held (c : Thread nD τ) (Pipeline.ucRefs τ sig) (StableHlo.after hostOps1 (W m c))
          = unscopedBufs c (fun b => StableHlo.after hostOps1 (W m c) (Proc.devRef .tc b)) from (Pipeline.unscopedBufs_held c _).symm,
        Pipeline.unscopedBufs_split₀ cfgs 0 winFacts₀0.arr_unscoped c, Launch.arrBufs_eq, unscopedRest0_eq]
      iintro ⟨⟨⟨⟨-, H1, H2, -⟩, H0, -, H3⟩, -⟩, HSI⟩
      icombine HSI H3 gives %h3
      icombine HSI H0 gives %h0
      icombine HSI H1 gives %h1
      icombine HSI H2 gives %h2
      imodintro
      isplitr
      · ipureintro
        refine ⟨Buf.eq_of_forall_mem_univ h3, ?_, ?_, ?_⟩
        · exact (Buf.eq_of_forall_mem_univ h0).trans (Launch.end_arg m c main_arg0 (by decide))
        · exact (Buf.eq_of_forall_mem_univ h1).trans (Launch.end_arg m c main_arg1 (by decide))
        · exact (Buf.eq_of_forall_mem_univ h2).trans (Launch.end_arg m c main_arg2 (by decide))
      iexact HSI)
    (hQ := fun _ h => h)

end Cert.KernelIdeal.Hand

end
-- ==== Proof.KI.Runs.lean ====
/-
  What the two runs of the body share.

  The body branches twice on the tile coordinate k of the point t = 16 e + k: the first branch is taken when k = 0
  and overwrites the output block with the tile's partial product, the second when k ≠ 0 and adds the partial product
  to the block. Exactly one is taken at every point, so the output's staging buffer is stored at every point. Both
  conditions are given in closed form, and each window's current staging memref is named.
-/
import proofs.«145822_j8916352106544_2_alg».proof.Proof.KI.Data
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch is taken at the first tile of an expert only. -/
theorem hcond1 : ∀ t : Fin cfg0.N, k0_cond1 (grid0.coords t) = 1#1 ↔ t.val % 16 = 0 :=
  (by decide +kernel : ∀ t : Fin grid0.N, k0_cond1 (grid0.coords t) = 1#1 ↔ t.val % 16 = 0)

/-- The second branch is taken at every later tile. -/
theorem hcond2 : ∀ t : Fin cfg0.N, k0_cond2 (grid0.coords t) = 1#1 ↔ ¬t.val % 16 = 0 :=
  (by decide +kernel : ∀ t : Fin grid0.N, k0_cond2 (grid0.coords t) = 1#1 ↔ ¬t.val % 16 = 0)

/-- One of the two branches is taken whatever the tile coordinate: the output window is stored at every point. -/
theorem live4 (i : cfg0.grid.Coords) : cfg0.idle 4 i = false :=
  (by decide +kernel : ∀ k : Fin 16,
    (!(Scalar.cmpi .ne (Scalar.extui (Scalar.cmpi .eq (BitVec.ofNat 32 k.val) 0#32)) 0#32 == 1#1)
      && !(Scalar.cmpi .ne (Scalar.extui (Scalar.cmpi .ne (BitVec.ofNat 32 k.val) 0#32)) 0#32 == 1#1)) = false) (i 1)

/-- The zero offsets of a whole-block access. -/
theorem hz : (![0, 0, 0] : Fin 3 → Nat) = fun _ => 0 := funext fun a => by fin_cases a <;> rfl

/-- Each window's current staging memref at point `t`, and its wholeness. -/
abbrev ms0_0 (t : Fin cfg0.N) : Memref sig .tc .vmem S1x512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x2048 .f32 := win0_4.stage (cfg0.slots t 4)
abbrev hs0_4 (t : Fin cfg0.N) : (ms0_4 t).IsWhole := hstage0_4 ((cfg0.slots t 4).cast nbuf0_4)

end Cert.KernelIdeal.Hand

end
-- ==== Proof.KI.RunA.lean ====
/-
  The body at the first tile of an expert (k = 0).

  On whole staging memrefs, the four inputs' at their contents and the output's at anything, the body reads the four
  input blocks, takes the first branch and not the second, and overwrites the whole output block with the tile's
  partial product: the inputs' buffers are handed back as they were, the output's holds `k0_pay2` of the four blocks.
-/
import proofs.«145822_j8916352106544_2_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple when the first branch is taken and the second is not. The one store covers the whole block, so
    what the output's buffer reads back is the store's payload, whatever it held; each load through the whole-block
    rectangle reads the buffer's contents. -/
theorem kernelRun0_A (c : Dev nD) (i : grid0.Coords)
    (arg2 : Memref sig .tc .vmem S1x512x2048 .bf16) (harg2 : arg2.IsWhole)
    (arg3 : Memref sig .tc .vmem S1x256x2048 .f32) (harg3 : arg3.IsWhole)
    (arg4 : Memref sig .tc .vmem S1x256x2048 .f32) (harg4 : arg4.IsWhole)
    (arg5 : Memref sig .tc .vmem S1x2048x256 .f32) (harg5 : arg5.IsWhole)
    (arg6 : Memref sig .tc .vmem S1x512x2048 .f32) (harg6 : arg6.IsWhole)
    (hc1 : k0_cond1 i = 1#1) (hc2 : ¬k0_cond2 i = 1#1)
    (x0 : Vec F S1x512x2048 .bf16) (x2 x5 : Vec F S1x256x2048 .f32) (x8 : Vec F S1x2048x256 .f32)
    (E : Set ℕ) (K : PUnit → sProp 𝕄) :
    iprop(owns (c : Thread nD τ) arg2 fullShare x0 ∗ owns (c : Thread nD τ) arg3 fullShare x2
        ∗ owns (c : Thread nD τ) arg4 fullShare x5 ∗ owns (c : Thread nD τ) arg5 fullShare x8
        ∗ (∃ d, owns (c : Thread nD τ) arg6 fullShare d)
        ∗ (iprop(owns (c : Thread nD τ) arg2 fullShare x0 ∗ owns (c : Thread nD τ) arg3 fullShare x2
            ∗ owns (c : Thread nD τ) arg4 fullShare x5 ∗ owns (c : Thread nD τ) arg5 fullShare x8
            ∗ owns (c : Thread nD τ) arg6 fullShare (k0_pay2 x0 x2 x5 x8)) -∗ K ⟨⟩))
      ⊢ wp frame (wpE (defs₀ (F := F)) Variants.none c none) E
          (cc0__moe_kernel i arg2 harg2 arg3 harg3 arg4 harg4 arg5 harg5 arg6 harg6) K := by
  simp only [cc0__moe_kernel_eq_skeleton]; unfold cc0__moe_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1
  obtain rfl := harg4.eq_unread hf2; obtain rfl := harg5.eq_unread hf3
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact H4
  ipureintro
  rw [View.read_writes_eq_canon _ _ _ (fun y => ⟨_, List.mem_singleton_self _, View.mem_set_unit_zero hz inb_S1x512x2048_S1x512x2048_0_0_0 y⟩),
    View.canon_unit_zero hz]
  simp only [View.readAt_eq_ld, hf0, hf1, hf2, hf3, View.ld_unit_zero (S := S1x512x2048) hz,
    View.ld_unit_zero (S := S1x256x2048) hz, View.ld_unit_zero (S := S1x2048x256) hz]

end Cert.KernelIdeal.Hand

end
-- ==== Proof.KI.RunB.lean ====
/-
  The body at a later tile of an expert (k ≠ 0).

  On whole staging memrefs, the four inputs' at their contents and the output's at the contents `xo` the tiles before
  left, the body reads the four input blocks, skips the first branch, takes the second, reads the output block and
  overwrites it whole with its contents plus the tile's partial product: the inputs' buffers are handed back as they
  were, the output's holds `k0_pay3` of the four blocks and `xo`.
-/
import proofs.«145822_j8916352106544_2_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple when the second branch is taken and the first is not. The one store covers the whole block, so
    what the output's buffer reads back is the store's payload; each load through the whole-block rectangle reads the
    buffer's contents, the output's among them. -/
theorem kernelRun0_B (c : Dev nD) (i : grid0.Coords)
    (arg2 : Memref sig .tc .vmem S1x512x2048 .bf16) (harg2 : arg2.IsWhole)
    (arg3 : Memref sig .tc .vmem S1x256x2048 .f32) (harg3 : arg3.IsWhole)
    (arg4 : Memref sig .tc .vmem S1x256x2048 .f32) (harg4 : arg4.IsWhole)
    (arg5 : Memref sig .tc .vmem S1x2048x256 .f32) (harg5 : arg5.IsWhole)
    (arg6 : Memref sig .tc .vmem S1x512x2048 .f32) (harg6 : arg6.IsWhole)
    (hc1 : ¬k0_cond1 i = 1#1) (hc2 : k0_cond2 i = 1#1)
    (x0 : Vec F S1x512x2048 .bf16) (x2 x5 : Vec F S1x256x2048 .f32) (x8 : Vec F S1x2048x256 .f32)
    (xo : Vec F S1x512x2048 .f32)
    (E : Set ℕ) (K : PUnit → sProp 𝕄) :
    iprop(owns (c : Thread nD τ) arg2 fullShare x0 ∗ owns (c : Thread nD τ) arg3 fullShare x2
        ∗ owns (c : Thread nD τ) arg4 fullShare x5 ∗ owns (c : Thread nD τ) arg5 fullShare x8
        ∗ owns (c : Thread nD τ) arg6 fullShare xo
        ∗ (iprop(owns (c : Thread nD τ) arg2 fullShare x0 ∗ owns (c : Thread nD τ) arg3 fullShare x2
            ∗ owns (c : Thread nD τ) arg4 fullShare x5 ∗ owns (c : Thread nD τ) arg5 fullShare x8
            ∗ owns (c : Thread nD τ) arg6 fullShare (k0_pay3 x0 x2 x5 x8 xo)) -∗ K ⟨⟩))
      ⊢ wp frame (wpE (defs₀ (F := F)) Variants.none c none) E
          (cc0__moe_kernel i arg2 harg2 arg3 harg3 arg4 harg4 arg5 harg5 arg6 harg6) K := by
  simp only [cc0__moe_kernel_eq_skeleton]; unfold cc0__moe_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1
  obtain rfl := harg4.eq_unread hf2; obtain rfl := harg5.eq_unread hf3
  obtain rfl := harg6.eq_unread hf4
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact H4
  ipureintro
  rw [View.read_writes_eq_canon _ _ _ (fun y => ⟨_, List.mem_singleton_self _, View.mem_set_unit_zero hz inb_S1x512x2048_S1x512x2048_0_0_0 y⟩),
    View.canon_unit_zero hz]
  simp only [View.readAt_eq_ld, hf0, hf1, hf2, hf3, hf4, View.ld_unit_zero (S := S1x512x2048) hz,
    View.ld_unit_zero (S := S1x256x2048) hz, View.ld_unit_zero (S := S1x2048x256) hz]

end Cert.KernelIdeal.Hand

end
-- ==== Proof.KI.Body.lean ====
/-
  The body obligation of the pipeline.

  Before the body at point t = 16 e + k each input's current staging buffer holds its block there, fetched at this
  point or kept from the point before (the token block moves only with e, the three weight tiles at every point).
  The output's buffer, at k ≠ 0, holds what the body left at the point before: the block is written back only after
  the last tile, and the body stores it at every point. At k = 0 the body overwrites it with the tile's partial
  product, at k ≠ 0 it adds the partial product to it: in both cases it leaves `acc` at t.
-/
import proofs.«145822_j8916352106544_2_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the buffers hold before the body -/

/-- Each input's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- At a later tile the output's current staging buffer holds what the body left at the tile before: the point is not
    the first, the block is written back after the last tile only, and the body stores it at every point. -/
theorem before_4 (c : Dev nD) (t : Fin cfg0.N) (h0 : ¬t.val % 16 = 0) (d) :
    (dats m 0 c).before 4 t d = acc m c (t.val - 1) (Nat.lt_of_le_of_lt (Nat.sub_le _ _) t.isLt) := by
  have hN : t.val < 256 := lt_of_lt_of_eq t.isLt (show cfg0.N = 256 from N_0)
  rw [Dat.before_out_kept _ 4 rfl t (by omega)
    (Bool.eq_false_iff.mpr fun h => by have := (flush0_4 _).mp h; dsimp only at this; omega)
    live4 (fun _ _ => rfl)]
  exact after_4 m c _

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 800000 in
/-- The body at any point: the inputs' buffers hold their blocks; the closed forms of the two conditions say which
    branch the point takes; at a later tile the output's buffer holds what the tile before left; so the run of that
    case applies, and what it leaves is `acc` at the point. The invariant passes through unread; nothing is owed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  by_cases h0 : t.val % 16 = 0
  · rw [acc_first m c t h0]
    iintro ⟨HΦ, Ho, ⟨%d0, H0⟩, ⟨%d1, H1⟩, ⟨%d2, H2⟩, ⟨%d3, H3⟩, ⟨%d4, H4⟩⟩
    iapply (kernelRun0_A c (grid0.coords t) _ _ _ _ _ _ _ _ _ _ ((hcond1 t).mpr h0) (fun h => (hcond2 t).mp h h0)
      (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc_later m c t h0]
    simp only [before_4 m c t h0]
    iintro ⟨HΦ, Ho, ⟨%d0, H0⟩, ⟨%d1, H1⟩, ⟨%d2, H2⟩, ⟨%d3, H3⟩, ⟨%d4, H4⟩⟩
    iapply (kernelRun0_B c (grid0.coords t) _ _ _ _ _ _ _ _ _ _ (fun h => h0 ((hcond1 t).mp h)) ((hcond2 t).mpr h0)
      (iblk m c 0 t) (iblk m c 1 t) (iblk m c 2 t) (iblk m c 3 t) _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point: the windows conjoined one by one, the output window never idle. -/
theorem body_obligation (c : Dev nD) : BodyObligation (dats (F := F) m 0 c) (defs₀ (F := F)) Variants.none () Set.univ := fun t => by
  rw [bigSep_W0, bigSep_W0]
  rw [live4 (cfg0.grid.coords t)]
  exact sound_body m c t

end Cert.KernelIdeal.Hand

end
-- ==== Proof.Blocks.lean ====
/-
  The input blocks of the expert kernel read at an entry, on the extended reals.

  Point t of the 16 x 16 grid is expert e = t / 16, tile k = t % 16. The token block is rows 512 e, …, 512 e + 511 of
  the tokens (the host's change of format is the identity here and its regrouping by expert is a change of
  indexing); the gate tile is rows 256 k, …, 256 k + 255 of expert e's packed weights, the up tile rows
  4096 + 256 k, …; the down tile is columns 256 k, … of expert e's down weights.
-/
import proofs.«145822_j8916352106544_2_alg».proof.Proof.KI.Data
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ)

/-- The printed index maps in closed form, decided over the grid. -/
theorem idx_facts : ∀ t : Fin cfg0.N,
    win0_0.index t (0 : Fin 3) = t.val / 16 ∧ win0_0.index t (1 : Fin 3) = 0 ∧ win0_0.index t (2 : Fin 3) = 0
    ∧ win0_1.index t (0 : Fin 3) = t.val / 16 ∧ win0_1.index t (1 : Fin 3) = t.val % 16 ∧ win0_1.index t (2 : Fin 3) = 0
    ∧ win0_2.index t (0 : Fin 3) = t.val / 16 ∧ win0_2.index t (1 : Fin 3) = 16 + t.val % 16 ∧ win0_2.index t (2 : Fin 3) = 0
    ∧ win0_3.index t (0 : Fin 3) = t.val / 16 ∧ win0_3.index t (1 : Fin 3) = 0 ∧ win0_3.index t (2 : Fin 3) = t.val % 16
    ∧ win0_4.index t (0 : Fin 3) = t.val / 16 ∧ win0_4.index t (1 : Fin 3) = 0 ∧ win0_4.index t (2 : Fin 3) = 0 :=
  (by decide +kernel : ∀ t : Fin grid0.N, _)

theorem t_lt (t : Fin cfg0.N) : t.val < 256 := lt_of_lt_of_eq t.isLt (show cfg0.N = 256 from N_0)

/-- The expert of a point, its tile, and the token row of an offset in the expert's block. -/
def expert (t : Fin cfg0.N) : Fin 16 := ⟨t.val / 16, by have := t_lt t; omega⟩
def tile (t : Fin cfg0.N) : Fin 16 := ⟨t.val % 16, by omega⟩
def tokenRow (e : Fin 16) (p : Fin 512) : Fin 8192 := ⟨e.val * 512 + p.val, by have := e.isLt; have := p.isLt; omega⟩

/-- The tokens regrouped by expert, read at an entry: entry (e, p, j) is the token array's (512 e + p, j). -/
theorem V_v1_apply (c : Dev nD) (e : Fin 16) (p : Fin 512) (j : Fin 2048) :
    V m c main_v1 (ix3 e p j) = m ((c : Thread nD τ).loc main_arg0) (ix2 (tokenRow e p) j) := by
  have e1 : @Eq ((⟨S16x512x2048, .bf16⟩ : BufTy).Contents (Elt Ideal)) (V m c main_v1)
      (shapeCast S16x512x2048 (truncf (F := Ideal) .bf16 (m ((c : Thread nD τ).loc main_arg0)) bitsLt_bf16_f32) shapeCasts_S8192x2048_S16x512x2048) := by
    dsimp only [V, hostOps0]; after_results <;> rfl
  rw [e1]
  refine (shapeCast_apply _ shapeCasts_S8192x2048_S16x512x2048 (ix3 e p j) (ix2 (tokenRow e p) j) ?_).trans rfl
  rewrite [Shape.rowMajor_val_two, Shape.rowMajor_val_three]
  show (e.val * 512 + p.val) * 2048 + j.val = (e.val * 512 + p.val) * 2048 + j.val
  rfl

/-- No host operation writes the packed weights or the down weights. -/
theorem V_arg1 (c : Dev nD) : V m c main_arg1 = m ((c : Thread nD τ).loc main_arg1) := by
  dsimp only [V, hostOps0]; after_results <;> rfl
theorem V_arg2 (c : Dev nD) : V m c main_arg2 = m ((c : Thread nD τ).loc main_arg2) := by
  dsimp only [V, hostOps0]; after_results <;> rfl

/-- The token block at point `t`, entry (p, j). -/
theorem blk0_apply (c : Dev nD) (t : Fin cfg0.N) (p : Fin 512) (j : Fin 2048) :
    iblk m c 0 t (ix3 (0 : Fin 1) p j) = m ((c : Thread nD τ).loc main_arg0) (ix2 (tokenRow (expert t) p) j) := by
  obtain ⟨h00, h01, h02, -⟩ := idx_facts t
  rw [← V_v1_apply m c (expert t) p j]
  show V m c main_v1 (((cfg0.win 0).blk t).view.emb (ix3 (0 : Fin 1) p j)) = _
  refine congrArg _ (funext fun a => Fin.ext ?_)
  match a with
  | ⟨0, _⟩ => show win0_0.index t (0 : Fin 3) * 1 + 1 * 0 = t.val / 16; omega
  | ⟨1, _⟩ => show win0_0.index t (1 : Fin 3) * 512 + 1 * p.val = p.val; omega
  | ⟨2, _⟩ => show win0_0.index t (2 : Fin 3) * 2048 + 1 * j.val = j.val; omega

/-- The gate tile at point `t`, entry (s, j): row 256 k + s of expert e's packed weights. -/
theorem blk1_apply (c : Dev nD) (t : Fin cfg0.N) (s : Fin 256) (j : Fin 2048) :
    iblk m c 1 t (ix3 (0 : Fin 1) s j)
      = m ((c : Thread nD τ).loc main_arg1) (ix3 (expert t) (⟨(tile t).val * 256 + s.val, by have := (tile t).isLt; have := s.isLt; omega⟩ : Fin 8192) j) := by
  obtain ⟨-, -, -, h10, h11, h12, -⟩ := idx_facts t
  rw [← V_arg1 m c]
  show V m c main_arg1 (((cfg0.win 1).blk t).view.emb (ix3 (0 : Fin 1) s j)) = _
  refine congrArg _ (funext fun a => Fin.ext ?_)
  match a with
  | ⟨0, _⟩ => show win0_1.index t (0 : Fin 3) * 1 + 1 * 0 = t.val / 16; omega
  | ⟨1, _⟩ => show win0_1.index t (1 : Fin 3) * 256 + 1 * s.val = t.val % 16 * 256 + s.val; omega
  | ⟨2, _⟩ => show win0_1.index t (2 : Fin 3) * 2048 + 1 * j.val = j.val; omega

/-- The up tile at point `t`, entry (s, j): row 4096 + 256 k + s of expert e's packed weights. -/
theorem blk2_apply (c : Dev nD) (t : Fin cfg0.N) (s : Fin 256) (j : Fin 2048) :
    iblk m c 2 t (ix3 (0 : Fin 1) s j)
      = m ((c : Thread nD τ).loc main_arg1) (ix3 (expert t) (⟨4096 + ((tile t).val * 256 + s.val), by have := (tile t).isLt; have := s.isLt; omega⟩ : Fin 8192) j) := by
  obtain ⟨-, -, -, -, -, -, h20, h21, h22, -⟩ := idx_facts t
  rw [← V_arg1 m c]
  show V m c main_arg1 (((cfg0.win 2).blk t).view.emb (ix3 (0 : Fin 1) s j)) = _
  refine congrArg _ (funext fun a => Fin.ext ?_)
  match a with
  | ⟨0, _⟩ => show win0_2.index t (0 : Fin 3) * 1 + 1 * 0 = t.val / 16; omega
  | ⟨1, _⟩ => show win0_2.index t (1 : Fin 3) * 256 + 1 * s.val = 4096 + (t.val % 16 * 256 + s.val); omega
  | ⟨2, _⟩ => show win0_2.index t (2 : Fin 3) * 2048 + 1 * j.val = j.val; omega

/-- The down tile at point `t`, entry (q, s): column 256 k + s of row q of expert e's down weights. -/
theorem blk3_apply (c : Dev nD) (t : Fin cfg0.N) (q : Fin 2048) (s : Fin 256) :
    iblk m c 3 t (ix3 (0 : Fin 1) q s)
      = m ((c : Thread nD τ).loc main_arg2) (ix3 (expert t) q (⟨(tile t).val * 256 + s.val, by have := (tile t).isLt; have := s.isLt; omega⟩ : Fin 4096)) := by
  obtain ⟨-, -, -, -, -, -, -, -, -, h30, h31, h32, -⟩ := idx_facts t
  rw [← V_arg2 m c]
  show V m c main_arg2 (((cfg0.win 3).blk t).view.emb (ix3 (0 : Fin 1) q s)) = _
  refine congrArg _ (funext fun a => Fin.ext ?_)
  match a with
  | ⟨0, _⟩ => show win0_3.index t (0 : Fin 3) * 1 + 1 * 0 = t.val / 16; omega
  | ⟨1, _⟩ => show win0_3.index t (1 : Fin 3) * 2048 + 1 * q.val = q.val; omega
  | ⟨2, _⟩ => show win0_3.index t (2 : Fin 3) * 256 + 1 * s.val = t.val % 16 * 256 + s.val; omega

end Cert.KernelIdeal.HandValue

end
-- ==== Proof.LibMatmulRows.lean ====
/-
  A matrix product against the rows of the right factor, read at an entry.

  For the dimension numbers of a product with the right factor transposed — an [a, n] array times an [b, n] array,
  contracting the second axis of both, no batch axis (the einsum "qd,kd->qk") — the product accumulated onto the zero
  array is, on the extended reals, at (p, q) the sum over k of left (p, k) · right (q, k): the dot product of row p of
  the left factor with row q of the right one.  The extents are variables, so the reading does not change with a
  kernel's tiling.
-/
import Idealize.ShloMosaic.Lib.ValueIdx
import Idealize.ShloMosaic.PureOps.Ideal.Laws

noncomputable section

open scoped BigOperators

namespace Cert.MatmulRows

open Idealize.ShloMosaic Idealize.ShloMosaic.ValueIdx

/-- The dimension numbers of an [a, n] × [b, n]ᵀ product, over any witness of their well-formedness. -/
abbrev dims {a n b : ℕ}
    (wf : DotDims.WF ⟨2, ![a, n]⟩ ⟨2, ![b, n]⟩ ⟨2, ![a, b]⟩ [1] [1] [0] [0] [] []) :
    DotDims ⟨2, ![a, n]⟩ ⟨2, ![b, n]⟩ ⟨2, ![a, b]⟩ :=
  ⟨[1], [1], [0], [0], [], [], wf⟩

/-- A product against the right factor's rows, onto the zero array: at (p, q) the sum over k of
    left (p, k) · right (q, k). -/
theorem zero_acc_apply {a n b : ℕ} {φ₁ φ₂ : FTy}
    (wf : DotDims.WF ⟨2, ![a, n]⟩ ⟨2, ![b, n]⟩ ⟨2, ![a, b]⟩ [1] [1] [0] [0] [] [])
    (prec : Option ContractPrecision) (L : FVec Ideal ⟨2, ![a, n]⟩ φ₁) (R : FVec Ideal ⟨2, ![b, n]⟩ φ₂)
    (p : Fin a) (q : Fin b) :
    FloatOps.matmul (dims wf) prec L R (constant ⟨2, ![a, b]⟩ .f32 0x00000000#32) (ix2 p q)
      = ∑ k : Fin n, L (ix2 p k) * R (ix2 q k) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 q k :=
    funext fun ax => Fin.ext (by
      match ax with
      | ⟨0, _⟩ => rfl
      | ⟨1, _⟩ => exact ((dims wf).rhsIdx_val_of_single rfl _ _).trans hk)
  rw [el, er]

end Cert.MatmulRows

end
-- ==== Proof.PayloadValue.lean ====
/-
  The kernel's payloads read at an index, on the extended reals.

  One grid point holds a token block v0 ([1, 512, 2048]), a tile of 256 gate rows v2 and of 256 up rows v5
  ([1, 256, 2048] each) and the matching 256 columns of the down weights v8 ([1, 2048, 256]).  The body forms, for token p
  and tile position s, the gate and up projections (dot products of row p of v0 with row s of v2, of v5), the gated unit
  up · (gate · logistic gate), and the partial product at (p, q): the sum over the 256 tile positions of the gated unit
  times v8 (q, s).  The first tile stores the partial product, every later one adds it to what the block holds.
  A change of float format is the identity here and every product and sum is exact.
-/
import proofs.«145822_j8916352106544_2_alg».proof.Proof.Gen.KernelIdeal.Skeleton
import proofs.«145822_j8916352106544_2_alg».proof.Proof.LibMatmulRows
import Idealize.ShloMosaic.Lib.ValueIdx
import Idealize.ShloMosaic.Lib.ValueLayout
import Idealize.ShloMosaic.Lib.Pipeline.Value

noncomputable section

open scoped BigOperators

namespace Cert.PayloadValue

open Cert.KernelIdeal Cert.KernelIdeal.Gen Idealize.ShloMosaic Idealize.ShloMosaic.ValueIdx

/-- The projection of token `p` against row `s` of a tile of weight rows. -/
def gateT (v0 : Vec Ideal S1x512x2048 .bf16) (w : Vec Ideal S1x256x2048 .f32) (p : Fin 512) (s : Fin 256) : EReal :=
  ∑ j : Fin 2048, v0 (ix3 (0 : Fin 1) p j) * w (ix3 (0 : Fin 1) s j)

/-- The gated unit of token `p` at tile position `s`: up · (gate · logistic gate). -/
def tileAct (v0 : Vec Ideal S1x512x2048 .bf16) (v2 v5 : Vec Ideal S1x256x2048 .f32) (p : Fin 512) (s : Fin 256) : EReal :=
  gateT v0 v5 p s * (gateT v0 v2 p s * Ideal.logistic (gateT v0 v2 p s))

/-- The token block against a tile of weight rows: the product onto the zero array, read at (p, s). -/
theorem proj_at (L : FVec Ideal S512x2048 .bf16) (R : FVec Ideal S256x2048 .bf16) (p : Fin 512) (s : Fin 256) :
    matmul dot_S512x2048_S256x2048_S512x256_1_1_0_0_n_n none L R (constant S512x256 .f32 0x00000000#32) (ix2 p s)
      = ∑ j : Fin 2048, L (ix2 p j) * R (ix2 s j) :=
  Cert.MatmulRows.zero_acc_apply dot_S512x2048_S256x2048_S512x256_1_1_0_0_n_n.wf none L R p s

/-- The gated units against the down weights' tile: the product onto the zero array, read at (p, q). -/
theorem down_at (L : FVec Ideal S512x256 .bf16) (R : FVec Ideal S2048x256 .bf16) (p : Fin 512) (q : Fin 2048) :
    matmul dot_S512x256_S2048x256_S512x2048_1_1_0_0_n_n none L R (constant S512x2048 .f32 0x00000000#32) (ix2 p q)
      = ∑ s : Fin 256, L (ix2 p s) * R (ix2 q s) :=
  Cert.MatmulRows.zero_acc_apply dot_S512x256_S2048x256_S512x2048_1_1_0_0_n_n.wf none L R p q

variable (v0 : Vec Ideal S1x512x2048 .bf16) (v2 v5 : Vec Ideal S1x256x2048 .f32) (v8 : Vec Ideal S1x2048x256 .f32)

/-- The body's projection of the token block against a tile of weight rows is `gateT`. -/
theorem proj_tile (w : Vec Ideal S1x256x2048 .f32) (h0 : S1x512x2048.ShapeCasts S512x2048)
    (h1 : S1x256x2048.ShapeCasts S256x2048) (hb : FTy.bits .bf16 < FTy.bits .f32) (p : Fin 512) (s : Fin 256) :
    matmul (F := Ideal) (φ₁ := .bf16) (φ₂ := .bf16) dot_S512x2048_S256x2048_S512x256_1_1_0_0_n_n none
        (shapeCast S512x2048 v0 h0 : FVec Ideal S512x2048 .bf16)
        (truncf (F := Ideal) .bf16 (shapeCast S256x2048 w h1 : FVec Ideal S256x2048 .f32) hb)
        (constant (F := Ideal) S512x256 .f32 0x00000000#32) (ix2 p s)
      = gateT v0 w p s := by
  refine (proj_at _ _ p s).trans ?_
  unfold gateT
  refine Finset.sum_congr rfl fun j _ => ?_
  rw [truncf_apply, shapeCast_1ab_ab_apply, shapeCast_1ab_ab_apply]

/-- The partial product of one tile at (p, q). -/
theorem pay1_apply (p : Fin 512) (q : Fin 2048) :
    k0_pay1 (F := Ideal) v0 v2 v5 v8 (ix2 p q) = ∑ s : Fin 256, tileAct v0 v2 v5 p s * v8 (ix3 (0 : Fin 1) q s) := by
  unfold k0_pay1
  refine (down_at _ _ p q).trans ?_
  refine Finset.sum_congr rfl fun s _ => ?_
  rw [truncf_apply, truncf_apply, shapeCast_1ab_ab_apply, mulf_apply, mulf_apply]
  show _ * (_ * FloatOps.logistic _) * _ = _
  rw [proj_tile, proj_tile, Ideal.logistic_def]
  rfl

/-- The first tile stores the partial product. -/
theorem pay2_apply (p : Fin 512) (q : Fin 2048) :
    k0_pay2 (F := Ideal) v0 v2 v5 v8 (ix3 (0 : Fin 1) p q) = k0_pay1 (F := Ideal) v0 v2 v5 v8 (ix2 p q) := by
  unfold k0_pay2
  exact shapeCast_ab_1ab_apply _ _ 0 p q

/-- A later tile stores what the block holds plus the partial product. -/
theorem pay3_apply (v24 : Vec Ideal S1x512x2048 .f32) (p : Fin 512) (q : Fin 2048) :
    k0_pay3 (F := Ideal) v0 v2 v5 v8 v24 (ix3 (0 : Fin 1) p q)
      = v24 (ix3 (0 : Fin 1) p q) + k0_pay1 (F := Ideal) v0 v2 v5 v8 (ix2 p q) := by
  unfold k0_pay3
  refine (shapeCast_ab_1ab_apply _ _ 0 p q).trans ?_
  rw [addf_apply, shapeCast_1ab_ab_apply]

end Cert.PayloadValue

end
-- ==== Proof.LibSumBlocks.lean ====
/-
  Regrouping a finite sum into consecutive blocks.

  A sum over the N = a * b indices 0, …, N - 1 is the sum, over the a blocks, of the sum over the b offsets inside a
  block: index i * b + j is offset j of block i.  Only commutativity and associativity of the addition are used, so the
  statement holds in any additive commutative monoid (the extended reals included).
-/
import Mathlib.Algebra.BigOperators.Fin
import Mathlib.Logic.Equiv.Fin.Basic

open scoped BigOperators

namespace Cert.SumBlocks

/-- Index `i * b + j` of block `i`, offset `j`, is below `a * b`. -/
theorem block_index_lt {a b : ℕ} (i : Fin a) (j : Fin b) : i.val * b + j.val < a * b := by
  have hi : i.val + 1 ≤ a := i.isLt
  have hj := j.isLt
  have h1 : (i.val + 1) * b ≤ a * b := Nat.mul_le_mul_right b hi
  rw [Nat.succ_mul] at h1
  omega

/-- A sum over `Fin N`, `N = a * b`, regrouped as `a` consecutive blocks of `b` terms. -/
theorem sum_blocks {M : Type*} [AddCommMonoid M] (a b N : ℕ) (hN : N = a * b) (f : Fin N → M) :
    ∑ n : Fin N, f n = ∑ i : Fin a, ∑ j : Fin b, f ⟨i.val * b + j.val, hN ▸ block_index_lt i j⟩ := by
  subst hN
  rw [← Fintype.sum_prod_type', ← (finProdFinEquiv (m := a) (n := b)).sum_comp]
  refine Finset.sum_congr rfl fun p _ => congrArg f (Fin.ext ?_)
  show p.2.val + b * p.1.val = p.1.val * b + p.2.val
  rw [Nat.mul_comm, Nat.add_comm]

end Cert.SumBlocks
-- ==== Proof.Spec.lean ====
/-
  The function both programs compute, on the extended reals.

  Sixteen experts; expert e owns the 512 token rows 512 e, …, 512 e + 511 of x (8192 x 2048). Its packed weights
  wgu[e] (8192 x 2048) hold the 4096 gate rows first and the 4096 up rows after them; wd[e] is 2048 x 4096.
  For a token row r = 512 e + t:

      proj r o   = Σ_j x[r, j] · wgu[e, o, j]                       (one entry of the packed projection)
      gate r i   = proj r i,   up r i = proj r (4096 + i)
      act r i    = up r i · (gate r i · logistic (gate r i))        (the gated unit)
      out[r, h]  = Σ_i act r i · wd[e, h, i]                        (4096 terms)

  The tiled program forms the last sum as sixteen partial sums of 256 consecutive terms added one after the other;
  that regrouping uses only that addition is commutative and associative.
-/
import Idealize.ShloMosaic.PureOps.Ideal
import Idealize.ShloMosaic.PureOps.Ideal.Laws
import Idealize.ShloMosaic.Lib.ValueIdx
import proofs.«145822_j8916352106544_2_alg».proof.Proof.LibSumBlocks

noncomputable section

open scoped BigOperators

namespace Cert.ExpertsSpec

open Idealize.ShloMosaic Idealize.ShloMosaic.ValueIdx

abbrev SX : Shape := ⟨2, ![8192, 2048]⟩
abbrev SGU : Shape := ⟨3, ![16, 8192, 2048]⟩
abbrev SD : Shape := ⟨3, ![16, 2048, 4096]⟩

/-- The expert that owns token row `r`. -/
def expertOf (r : Fin 8192) : Fin 16 := ⟨r.val / 512, by have := r.isLt; omega⟩

/-- Row `i` of the gate half and of the up half of an expert's packed weights. -/
def gateRow (i : Fin 4096) : Fin 8192 := ⟨i.val, by have := i.isLt; omega⟩
def upRow (i : Fin 4096) : Fin 8192 := ⟨4096 + i.val, by have := i.isLt; omega⟩

/-- Position `s` of tile `k` of the 4096 intermediate positions (sixteen tiles of 256). -/
def tilePos (k : Fin 16) (s : Fin 256) : Fin 4096 := ⟨k.val * 256 + s.val, Cert.SumBlocks.block_index_lt k s⟩

variable (x : SX.Idx → EReal) (wgu : SGU.Idx → EReal) (wd : SD.Idx → EReal)

/-- One entry of the packed projection: token row `r` against row `o` of its expert's packed weights. -/
def proj (r : Fin 8192) (o : Fin 8192) : EReal := ∑ j : Fin 2048, x (ix2 r j) * wgu (ix3 (expertOf r) o j)

/-- The gated unit at intermediate position `i`: up · (gate · logistic gate). -/
def act (r : Fin 8192) (i : Fin 4096) : EReal :=
  proj x wgu r (upRow i) * (proj x wgu r (gateRow i) * Ideal.logistic (proj x wgu r (gateRow i)))

/-- The result at token row `r`, hidden position `h`. -/
def out (r : Fin 8192) (h : Fin 2048) : EReal := ∑ i : Fin 4096, act x wgu r i * wd (ix3 (expertOf r) h i)

/-- The result array. -/
def G : SX.Idx → EReal := fun j => out x wgu wd (j 0) (j 1)

/-- Tile `k`'s partial sum of the result at (`r`, `h`): its 256 terms. -/
def part (r : Fin 8192) (h : Fin 2048) (k : Fin 16) : EReal :=
  ∑ s : Fin 256, act x wgu r (tilePos k s) * wd (ix3 (expertOf r) h (tilePos k s))

/-- The result is the sum of the sixteen tiles' partial sums. -/
theorem out_eq_sum_parts (r : Fin 8192) (h : Fin 2048) : out x wgu wd r h = ∑ k : Fin 16, part x wgu wd r h k := by
  unfold out part
  exact Cert.SumBlocks.sum_blocks 16 256 4096 rfl _

/-- The running total after tiles 0, …, n: the first tile's partial sum, then each later one added on the right. -/
def running (r : Fin 8192) (h : Fin 2048) : ℕ → EReal
  | 0 => part x wgu wd r h ⟨0, by omega⟩
  | n + 1 => if hn : n + 1 < 16 then running r h n + part x wgu wd r h ⟨n + 1, hn⟩ else running r h n

/-- The running total after tile `n` is the sum of the partial sums of tiles 0, …, n. -/
theorem running_eq (r : Fin 8192) (h : Fin 2048) (n : ℕ) (hn : n < 16) :
    running x wgu wd r h n = ∑ k ∈ Finset.univ.filter (fun k : Fin 16 => k.val ≤ n), part x wgu wd r h k := by
  induction n with
  | zero =>
    have : (Finset.univ.filter fun k : Fin 16 => k.val ≤ 0) = {⟨0, by omega⟩} := by
      ext k
      rw [Finset.mem_filter, Finset.mem_singleton]
      constructor
      · rintro ⟨-, h⟩; exact Fin.ext (Nat.le_zero.mp h)
      · rintro rfl; exact ⟨Finset.mem_univ _, le_refl _⟩
    rw [this, Finset.sum_singleton]; rfl
  | succ n ih =>
    have hn' : n < 16 := by omega
    have hs : (Finset.univ.filter fun k : Fin 16 => k.val ≤ n + 1)
        = insert ⟨n + 1, hn⟩ (Finset.univ.filter fun k : Fin 16 => k.val ≤ n) := by
      ext k
      rw [Finset.mem_filter, Finset.mem_insert, Finset.mem_filter]
      constructor
      · rintro ⟨-, h⟩
        by_cases hk : k.val = n + 1
        · exact Or.inl (Fin.ext hk)
        · exact Or.inr ⟨Finset.mem_univ _, by omega⟩
      · rintro (rfl | ⟨-, h⟩)
        · exact ⟨Finset.mem_univ _, le_refl _⟩
        · exact ⟨Finset.mem_univ _, by omega⟩
    have hnm : (⟨n + 1, hn⟩ : Fin 16) ∉ Finset.univ.filter fun k : Fin 16 => k.val ≤ n := fun h =>
      absurd (Finset.mem_filter.mp h).2 (Nat.not_succ_le_self n)
    rw [running, dif_pos hn, ih hn', hs, Finset.sum_insert hnm, add_comm]

/-- After the last tile the running total is the result. -/
theorem running_last (r : Fin 8192) (h : Fin 2048) : running x wgu wd r h 15 = out x wgu wd r h := by
  rw [running_eq x wgu wd r h 15 (by omega), out_eq_sum_parts]
  refine Finset.sum_congr ?_ fun _ _ => rfl
  exact Finset.filter_true_of_mem fun k _ => by have := k.isLt; omega

end Cert.ExpertsSpec

end
-- ==== Proof.Accum.lean ====
/-
  What the output's staging buffer holds after each point, on the extended reals: after tile k of expert e it is, at
  entry (p, q), the running total of the partial sums of tiles 0, …, k of the result at token row 512 e + p, hidden
  position q. At the first tile the body stores the tile's partial sum; at a later one it adds the tile's partial sum
  to what the tile before left.
-/
import proofs.«145822_j8916352106544_2_alg».proof.Proof.Blocks
import proofs.«145822_j8916352106544_2_alg».proof.Proof.PayloadValue
import proofs.«145822_j8916352106544_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ)

open Cert.ExpertsSpec Cert.PayloadValue

/-- The three argument arrays on core `c`. -/
abbrev argX (c : Dev nD) := m ((c : Thread nD τ).loc main_arg0)
abbrev argGU (c : Dev nD) := m ((c : Thread nD τ).loc main_arg1)
abbrev argD (c : Dev nD) := m ((c : Thread nD τ).loc main_arg2)

theorem expertOf_tokenRow (e : Fin 16) (p : Fin 512) : expertOf (tokenRow e p) = e :=
  Fin.ext (by show (e.val * 512 + p.val) / 512 = e.val; have := p.isLt; omega)

/-- A token block against a tile of packed-weight rows: an entry of the packed projection. -/
theorem gateT_eq (c : Dev nD) (t : Fin cfg0.N) (p : Fin 512) (s : Fin 256) :
    gateT (iblk m c 0 t) (iblk m c 1 t) p s
      = proj (argX m c) (argGU m c) (tokenRow (expert t) p) (gateRow (tilePos (tile t) s)) := by
  unfold gateT proj
  refine Finset.sum_congr rfl fun j _ => ?_
  rw [blk0_apply, blk1_apply, expertOf_tokenRow]
  rfl

theorem upT_eq (c : Dev nD) (t : Fin cfg0.N) (p : Fin 512) (s : Fin 256) :
    gateT (iblk m c 0 t) (iblk m c 2 t) p s
      = proj (argX m c) (argGU m c) (tokenRow (expert t) p) (upRow (tilePos (tile t) s)) := by
  unfold gateT proj
  refine Finset.sum_congr rfl fun j _ => ?_
  rw [blk0_apply, blk2_apply, expertOf_tokenRow]
  rfl

/-- The tile's partial product at entry (p, q) is the tile's partial sum of the result. -/
theorem pay1_part (c : Dev nD) (t : Fin cfg0.N) (p : Fin 512) (q : Fin 2048) :
    k0_pay1 (F := Ideal) (iblk m c 0 t) (iblk m c 1 t) (iblk m c 2 t) (iblk m c 3 t) (ix2 p q)
      = part (argX m c) (argGU m c) (argD m c) (tokenRow (expert t) p) q (tile t) := by
  rw [pay1_apply]
  unfold part
  refine Finset.sum_congr rfl fun s _ => ?_
  unfold tileAct act
  rw [gateT_eq, upT_eq, blk3_apply, expertOf_tokenRow]
  rfl

/-- After point `n` the output's staging buffer holds, at (p, q), the running total through tile `n % 16`. -/
theorem acc_apply (c : Dev nD) : ∀ (n : ℕ) (hn : n < cfg0.N) (p : Fin 512) (q : Fin 2048),
    acc m c n hn (ix3 (0 : Fin 1) p q)
      = running (argX m c) (argGU m c) (argD m c) (tokenRow (expert ⟨n, hn⟩) p) q (n % 16) := by
  intro n
  induction n with
  | zero =>
    intro hn p q
    rw [acc_first m c ⟨0, hn⟩ rfl, pay2_apply, pay1_part]
    rfl
  | succ n ih =>
    intro hn p q
    by_cases h0 : (n + 1) % 16 = 0
    · rw [acc_first m c ⟨n + 1, hn⟩ h0, pay2_apply, pay1_part, h0]
      have ht : tile ⟨n + 1, hn⟩ = ⟨0, by omega⟩ := Fin.ext h0
      rw [ht]
      rfl
    · have hn' : n < cfg0.N := Nat.lt_of_succ_lt hn
      have he : expert ⟨n, hn'⟩ = expert ⟨n + 1, hn⟩ := Fin.ext (by show n / 16 = (n + 1) / 16; omega)
      have hm : (n + 1) % 16 = n % 16 + 1 := by omega
      have hlt : n % 16 + 1 < 16 := by omega
      have ht : tile ⟨n + 1, hn⟩ = ⟨n % 16 + 1, hlt⟩ := Fin.ext hm
      rw [acc_later m c ⟨n + 1, hn⟩ h0, pay3_apply, pay1_part]
      show acc m c n _ (ix3 (0 : Fin 1) p q) + _ = _
      rw [ih hn' p q, he, hm, ht]
      show _ = (if h : n % 16 + 1 < 16 then _ else _)
      rw [dif_pos hlt]

end Cert.KernelIdeal.HandValue

end
-- ==== Proof.Final.lean ====
/-
  The output array when the region is left: expert e's block holds, at (p, q), the result at token row 512 e + p,
  hidden position q. A block is written back after the expert's last tile, when the running total is the whole
  sum; the sixteen blocks tile the array.
-/
import proofs.«145822_j8916352106544_2_alg».proof.Proof.Accum
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ)

open Cert.ExpertsSpec Cert.PayloadValue

/-- The result regrouped by expert: entry (e, p, q) is the result at (512 e + p, q). -/
def Gout (c : Dev nD) : S16x512x2048.Idx → EReal :=
  fun i => out (argX m c) (argGU m c) (argD m c) (tokenRow (i 0) (i 1)) (i 2)

/-- What a writing-back point writes is its block of the regrouped result. -/
theorem flushed_eq (c : Dev nD) (t : Fin cfg0.N) (hf : (cfg0.win 4).flush t = true) :
    (dats m 0 c).flushed 4 t = ((cfg0.win 4).blk t).view.read (Elt Ideal) (Gout m c) := by
  have h15 : t.val % 16 = 15 := (flush0_4 t).mp hf
  obtain ⟨-, -, -, -, -, -, -, -, -, -, -, -, h40, h41, h42⟩ := idx_facts t
  show (cfg0.win 4).cut (grid0.coords t) ((dats m 0 c).after 4 t) = _
  rw [after_4]
  funext y
  obtain ⟨u, p, q, rfl⟩ : ∃ (u : Fin 1) (p : Fin 512) (q : Fin 2048), y = ix3 u p q := ⟨y 0, y 1, y 2, eq_ix3 y⟩
  obtain rfl : u = 0 := Subsingleton.elim _ _
  show acc m c t.val t.isLt (ix3 (0 : Fin 1) p q) = Gout m c (((cfg0.win 4).blk t).view.emb (ix3 (0 : Fin 1) p q))
  rw [acc_apply, h15, running_last]
  unfold Gout
  have hemb : ((cfg0.win 4).blk t).view.emb (ix3 (0 : Fin 1) p q) = ix3 (expert t) p q := by
    funext a; apply Fin.ext
    match a with
    | ⟨0, _⟩ => show win0_4.index t (0 : Fin 3) * 1 + 1 * 0 = t.val / 16; omega
    | ⟨1, _⟩ => show win0_4.index t (1 : Fin 3) * 512 + 1 * p.val = p.val; omega
    | ⟨2, _⟩ => show win0_4.index t (2 : Fin 3) * 2048 + 1 * q.val = q.val; omega
  rw [hemb]

/-- An index of the array is in point `t`'s block iff each coordinate is in the block's range on its axis. -/
theorem mem_blk4 (t : Fin cfg0.N) (i : S16x512x2048.Idx) :
    i ∈ ((cfg0.win 4).blk t).view.set ↔ ∀ a : Fin 3, win0_4.index t a * S1x512x2048.size a ≤ (i a).val ∧ (i a).val < win0_4.index t a * S1x512x2048.size a + S1x512x2048.size a := by
  show i ∈ ((View.whole main_v2).slice (win0_4.rect t)).set ↔ _
  rw [View.set_slice_whole, Rect.mem_set_unit]
  exact Iff.rfl

/-- Every entry of the array is in the block of its expert's last tile, which is written back. -/
theorem cover (i : S16x512x2048.Idx) :
    ∃ t : Fin cfg0.N, (cfg0.win 4).flush t = true ∧ i ∈ ((cfg0.win 4).blk t).view.set := by
  have hi0 : (i 0).val < 16 := (i 0).isLt
  have hi1 : (i 1).val < 512 := (i 1).isLt
  have hi2 : (i 2).val < 2048 := (i 2).isLt
  have hN : cfg0.N = 256 := N_0
  let t : Fin cfg0.N := ⟨16 * (i 0).val + 15, by rw [hN]; omega⟩
  have htv : t.val = 16 * (i 0).val + 15 := rfl
  obtain ⟨-, -, -, -, -, -, -, -, -, -, -, -, h40, h41, h42⟩ := idx_facts t
  refine ⟨t, (flush0_4 t).mpr (by rw [htv]; omega), ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 2048 ≤ (i 2).val ∧ (i 2).val < win0_4.index t (2 : Fin 3) * 2048 + 2048; omega

/-- The output array when the region is left. -/
theorem final (c : Dev nD) : (dats m 0 c).arrAt 4 cfg0.N = Gout m c :=
  (dats m 0 c).arrAt_eq_of_cover 4 (Gout m c) (fun t hf => flushed_eq m c t hf) cover

end Cert.KernelIdeal.HandValue

end
-- ==== Proof.Result.lean ====
/-
  The idealized kernel's run, read: its result array ends at the specification of the three argument arrays. After
  the region the output array holds the result regrouped by expert; the last host operation lays it out again as
  8192 rows, row 512 e + p from entry (e, p).
-/
import proofs.«145822_j8916352106544_2_alg».proof.Proof.Final
import proofs.«145822_j8916352106544_2_alg».proof.Proof.KI.Launch
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ)

open Cert.ExpertsSpec

/-- The program's result when @main returns. -/
theorem result_eq (c : Dev nD) :
    StableHlo.after hostOps1 (W m c) main_v3 = G (argX m c) (argGU m c) (argD m c) := by
  have e1 : @Eq ((⟨S8192x2048, .f32⟩ : BufTy).Contents (Elt Ideal)) (StableHlo.after hostOps1 (W m c) main_v3)
      (shapeCast S8192x2048 (Gout m c) shapeCasts_S16x512x2048_S8192x2048) := by
    rw [← final m c, ← W_main_v2 m c]
    dsimp only [hostOps1]; after_results <;> rfl
  refine e1.trans (funext fun i => ?_)
  obtain ⟨r, h, rfl⟩ : ∃ (r : Fin 8192) (h : Fin 2048), i = ix2 r h := ⟨i 0, i 1, eq_ix2 i⟩
  have hr : r.val < 8192 := r.isLt
  refine (shapeCast_apply (Gout m c) shapeCasts_S16x512x2048_S8192x2048 (ix2 r h)
    (ix3 (⟨r.val / 512, by omega⟩ : Fin 16) (⟨r.val % 512, by omega⟩ : Fin 512) h) ?_).trans ?_
  · rewrite [Shape.rowMajor_val_three, Shape.rowMajor_val_two]
    show (r.val / 512 * 512 + r.val % 512) * 2048 + h.val = r.val * 2048 + h.val
    omega
  · unfold Gout G
    have : tokenRow (⟨r.val / 512, by omega⟩ : Fin 16) (⟨r.val % 512, by omega⟩ : Fin 512) = r :=
      Fin.ext (by show r.val / 512 * 512 + r.val % 512 = r.val; omega)
    show out _ _ _ (tokenRow _ _) h = out _ _ _ r h
    rw [this]

end Cert.KernelIdeal.HandValue

end
-- ==== Proof.RunValue.lean ====
/-
  The idealized kernel's run with its result named: every weakly fair execution of its @main terminates with the
  result array at the specification of the three argument arrays, and the arguments unchanged.
-/
import proofs.«145822_j8916352106544_2_alg».proof.Proof.Result
import proofs.«145822_j8916352106544_2_alg».proof.Proof.KI.Body
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ)

open Cert.ExpertsSpec

/-- Every weakly fair execution of the idealized kernel's @main terminates with the result at the specification
    and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v3) = G (argX m c) (argGU m c) (argD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_eq m c), (h c).2⟩)
    (run_main m ρ (fun c => body_obligation m c))

end Cert.KernelIdeal.HandValue

end
-- ==== Proof.RefIsSpec.lean ====
/-
  The reference program's result is the specification.

  The reference reshapes the tokens to [16, 512, 2048], takes the packed projection of every expert's block against
  its packed weights, slices the gate half and the up half, forms up · (gate · (1 / (1 + exp (−gate)))), contracts with
  the down weights, and reshapes back to [8192, 2048].  Token row r is row r % 512 of block r / 512, so every stage read
  at an index is the corresponding quantity of the specification.
-/
import proofs.«145822_j8916352106544_2_alg».proof.Proof.Gen.ReferenceIdeal.Read
import proofs.«145822_j8916352106544_2_alg».proof.Proof.Spec

noncomputable section

open scoped BigOperators

namespace Cert.RefIsSpec

open Idealize.ShloMosaic Idealize.ShloMosaic.ValueIdx Cert.ReferenceIdeal Cert.ReferenceIdeal.Read Cert.ExpertsSpec

/-- The word 0x3F800000 is the number one. -/
theorem ofBits_one : Ideal.ofBits .f32 0x3F800000#32 = 1 := by
  simp [Ideal.ofBits, Ideal.ieee, -EReal.coe_mul]; norm_num

/-- The position of token row `r` inside its expert's block. -/
def tok (r : Fin 8192) : Fin 512 := ⟨r.val % 512, Nat.mod_lt _ (by norm_num)⟩

variable (x0 : (⟨S8192x2048, .f32⟩ : BufTy).Contents (Elt Ideal))
  (x1 : (⟨S16x8192x2048, .f32⟩ : BufTy).Contents (Elt Ideal))
  (x2 : (⟨S16x2048x4096, .f32⟩ : BufTy).Contents (Elt Ideal))

/-- The reshaped tokens at (expert of r, position of r, j) are the tokens at (r, j). -/
theorem v0_at (r : Fin 8192) (j : Fin 2048) :
    val_main_v0 (F := Ideal) x0 (ix3 (expertOf r) (tok r) j) = x0 (ix2 r j) := by
  rw [val_main_v0_apply]
  refine congrArg x0 (funext fun a => Fin.ext ?_)
  have hr := r.isLt; have hj := j.isLt
  match a with
  | ⟨0, _⟩ => show ((r.val / 512 * 512 + r.val % 512) * 2048 + j.val) / 2048 = r.val; omega
  | ⟨1, _⟩ => show ((r.val / 512 * 512 + r.val % 512) * 2048 + j.val) % 2048 = j.val; omega

/-- The packed projection stage at (expert of r, position of r, o) is the specification's projection. -/
theorem v1_at (r : Fin 8192) (o : Fin 8192) :
    val_main_v1 (F := Ideal) x0 x1 (ix3 (expertOf r) (tok r) o) = proj x0 x1 r o := by
  rw [val_main_v1_apply]
  unfold proj
  refine Finset.sum_congr rfl fun j _ => ?_
  have el : lidx_main_v1 (ix3 (expertOf r) (tok r) o) j = ix3 (expertOf r) (tok r) j :=
    funext fun a => Fin.ext (by match a with | ⟨0, _⟩ => rfl | ⟨1, _⟩ => rfl | ⟨2, _⟩ => rfl)
  have er : ridx_main_v1 (ix3 (expertOf r) (tok r) o) j = ix3 (expertOf r) o j :=
    funext fun a => Fin.ext (by match a with | ⟨0, _⟩ => rfl | ⟨1, _⟩ => rfl | ⟨2, _⟩ => rfl)
  rw [el, er, v0_at]

/-- The gate half of the projection. -/
theorem v2_at (r : Fin 8192) (i : Fin 4096) :
    val_main_v2 (F := Ideal) x0 x1 (ix3 (expertOf r) (tok r) i) = proj x0 x1 r (gateRow i) := by
  rw [val_main_v2_apply, ← v1_at]
  refine congrArg _ (funext fun a => Fin.ext ?_)
  match a with | ⟨0, _⟩ => rfl | ⟨1, _⟩ => rfl | ⟨2, _⟩ => rfl

/-- The up half of the projection. -/
theorem v3_at (r : Fin 8192) (i : Fin 4096) :
    val_main_v3 (F := Ideal) x0 x1 (ix3 (expertOf r) (tok r) i) = proj x0 x1 r (upRow i) := by
  rw [val_main_v3_apply, ← v1_at]
  refine congrArg _ (funext fun a => Fin.ext ?_)
  match a with | ⟨0, _⟩ => rfl | ⟨1, _⟩ => rfl | ⟨2, _⟩ => rfl

/-- The gated unit stage. -/
theorem v5_at (r : Fin 8192) (i : Fin 4096) :
    val_main_v5 (F := Ideal) x0 x1 (ix3 (expertOf r) (tok r) i) = act x0 x1 r i := by
  rw [val_main_v5_apply, val_main_v4_apply, val_main_call0_v5_apply, val_main_call0_v4_apply, val_main_call0_cst_0_apply,
    val_main_call0_v3_apply, val_main_call0_v2_apply, val_main_call0_cst_apply, val_main_call0_v1_apply,
    val_main_call0_v0_apply, v3_at, v2_at]
  simp only [Ideal.mulf_def, Ideal.hostDivf_def, Ideal.addf_def, Ideal.hostUnary_exp_def, Ideal.hostNegf_def,
    Ideal.negf_def, Ideal.ofBits_def, ofBits_one]
  rfl

/-- The reference's result is the specification. -/
theorem ref_eq : val_main_v7 (F := Ideal) x0 x1 x2 = G x0 x1 x2 := by
  funext i
  obtain ⟨r, h, rfl⟩ : ∃ (r : Fin 8192) (h : Fin 2048), i = ix2 r h := ⟨i 0, i 1, eq_ix2 i⟩
  have e7 : idx_main_v7 (ix2 r h) = ix3 (expertOf r) (tok r) h := funext fun a => Fin.ext (by
    have hr := r.isLt; have hh := h.isLt
    match a with
    | ⟨0, _⟩ => show (r.val * 2048 + h.val) / 1048576 = r.val / 512; omega
    | ⟨1, _⟩ => show (r.val * 2048 + h.val) / 2048 % 512 = r.val % 512; omega
    | ⟨2, _⟩ => show (r.val * 2048 + h.val) % 2048 = h.val; omega)
  rw [val_main_v7_apply, e7, val_main_v6_apply]
  show _ = out x0 x1 x2 r h
  unfold out
  refine Finset.sum_congr rfl fun k _ => ?_
  have el : lidx_main_v6 (ix3 (expertOf r) (tok r) h) k = ix3 (expertOf r) (tok r) k :=
    funext fun a => Fin.ext (by match a with | ⟨0, _⟩ => rfl | ⟨1, _⟩ => rfl | ⟨2, _⟩ => rfl)
  have er : ridx_main_v6 (ix3 (expertOf r) (tok r) h) k = ix3 (expertOf r) h k :=
    funext fun a => Fin.ext (by match a with | ⟨0, _⟩ => rfl | ⟨1, _⟩ => rfl | ⟨2, _⟩ => rfl)
  rw [el, er, v5_at]

end Cert.RefIsSpec

end
-- ==== Proof.lean ====
/-
  The certificate of the expert kernel against its reference.

  Both programs compute, for each of sixteen experts, the gated unit of the expert's 512 tokens against its packed
  gate/up weights and the product of that with its down weights (Proof/Spec.lean states the function on the
  extended reals). The reference does it with two whole batched products; the kernel walks a 16 x 16 grid, one
  tile of 256 intermediate positions at a time, keeping an expert's output block in place and adding each tile's
  partial product to it. The two results agree entry by entry because a sum of 4096 terms is the sum of its sixteen
  consecutive runs of 256 (addition on the extended reals is commutative and associative; nothing else is used, so
  the finiteness of the inputs is never opened), and because the kernel's logistic and the reference's
  1 / (1 + exp (−x)) are one function there.

  The frames: the kernel's run is composed from the host's two operations, the region (each point's body against
  what the pipeline stages: Proof/KI, Proof/K) and the host's last operation; the reference's run is its operations
  in order.
-/
import proofs.«145822_j8916352106544_2_alg».proof.Defs
import proofs.«145822_j8916352106544_2_alg».proof.Proof.Gen.Kernel
import proofs.«145822_j8916352106544_2_alg».proof.Proof.Gen.KernelIdeal
import proofs.«145822_j8916352106544_2_alg».proof.Proof.Gen.ReferenceIdeal
import proofs.«145822_j8916352106544_2_alg».proof.Proof.Gen.Pre_finite_inputs
import proofs.«145822_j8916352106544_2_alg».proof.Proof.Gen.ReferenceIdeal.Run
import proofs.«145822_j8916352106544_2_alg».proof.Proof.Gen.ReferenceIdeal.Read
import proofs.«145822_j8916352106544_2_alg».proof.Proof.K.Launch
import proofs.«145822_j8916352106544_2_alg».proof.Proof.K.Body
import proofs.«145822_j8916352106544_2_alg».proof.Proof.KI.Launch
import proofs.«145822_j8916352106544_2_alg».proof.Proof.KI.Body
import proofs.«145822_j8916352106544_2_alg».proof.Proof.RunValue
import proofs.«145822_j8916352106544_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments as they were. -/
theorem frame_k : Cert.frame_Kernel := fun m ρ _ =>
  (θ_run Cert.Kernel.defs _ _).mono (fun _ h c => (h c).2)
    (Cert.Kernel.Hand.run_main (F := Bits) m ρ (fun c => Cert.Kernel.Hand.body_obligation m c))

/-- So does the idealized kernel. -/
theorem frame_ki : Cert.frame_KernelIdeal := fun m ρ _ =>
  (θ_run Cert.KernelIdeal.defs _ _).mono (fun _ h c => (h c).2)
    (Cert.KernelIdeal.Hand.run_main (F := Ideal) m ρ (fun c => Cert.KernelIdeal.Hand.body_obligation m c))

/-- And the reference: its operations in order. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the specification of those arguments
    in their result arrays. -/
theorem algebraic : Cert.algebraic_KernelIdeal_ReferenceIdeal := by
  intro m ρ m' ρ' _ hagree
  refine ⟨fun c => Cert.ExpertsSpec.G (Cert.KernelIdeal.HandValue.argX m c) (Cert.KernelIdeal.HandValue.argGU m c)
    (Cert.KernelIdeal.HandValue.argD m c), Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.RefIsSpec.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
